-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x13 : Shape := ⟨2, ![100000, 13]⟩
abbrev S2x1600000 : Shape := ⟨2, ![2, 1600000]⟩
abbrev S100000 : Shape := ⟨1, ![100000]⟩
abbrev S13x128 : Shape := ⟨2, ![13, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S100000x13 : S_.BroadcastsInDim S100000x13 (![] : Fin 0 → Fin S100000x13.rank)
  reducesTo_S100000x13_S_d0_1 : S100000x13.ReducesTo [0, 1] S_
  h_S_ : 0 < S_.numel
  bcast_S_S13x128 : S_.BroadcastsInDim S13x128 (![] : Fin 0 → Fin S13x128.rank)
  reducesTo_S13x128_S_d0_1 : S13x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S128x1 .f32) (main_arg14 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128x256 .f32) (main_arg10 : FVec F S256 .f32) (main_arg11 : FVec F S256x128 .f32) (main_arg12 : FVec F S128 .f32) (main_arg13 : FVec F S128x1 .f32) (main_arg14 : FVec F S1 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x256 .f32) (main_arg10 : FVec F S256 .f32) (main_arg11 : FVec F S256x128 .f32) (main_arg12 : FVec F S128 .f32) (main_arg13 : FVec F S128x1 .f32) (main_arg14 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x13 .f32) (main_arg1 : IVec S2x1600000 32) (main_arg2 : IVec S100000 32) (main_arg3 : FVec F S13x128 .f32) (main_arg4 : FVec F S128 .f32) (main_arg5 : FVec F S128x128 .f32) (main_arg6 : FVec F S128 .f32) (main_arg7 : FVec F S128x128 .f32) (main_arg8 : FVec F S128 .f32) (main_arg9 : FVec F S128x256 .f32) (main_arg10 : FVec F S256 .f32) (main_arg11 : FVec F S256x128 .f32) (main_arg12 : FVec F S128 .f32) (main_arg13 : FVec F S128x1 .f32) (main_arg14 : FVec F S1 .f32) : IVec S_ 1 :=
  let main_v0 : FVec F S100000x13 .f32 := Host.absf main_arg0
  let main_cst : FVec F S_ .f32 := constant S_ .f32 0x7F800000#32
  let main_v1 : FVec F S100000x13 .f32 := broadcastInDim S100000x13 ![] bcast_S_S100000x13 main_cst
  let main_v2 : IVec S100000x13 1 := cmpf .olt main_v0 main_v1
  let main_c : IVec S_ 1 := constantI S_ 1 1#1
  let main_v3 : IVec S_ 1 := (fun x v => Host.reduce IntOp.andi x v reducesTo_S100000x13_S_d0_1 h_S_) main_v2 main_c
  let main_v4 : FVec F S13x128 .f32 := Host.absf main_arg3
  let main_cst_0 : FVec F S_ .f32 := constant S_ .f32 0x7F800000#32
  let main_v5 : FVec F S13x128 .f32 := broadcastInDim S13x128 ![] bcast_S_S13x128 main_cst_0
  let main_v6 : IVec S13x128 1 := cmpf .olt main_v4 main_v5
  let main_c_1 : IVec S_ 1 := constantI S_ 1 1#1
  let main_v7 : IVec S_ 1 := (fun x v => Host.reduce IntOp.andi x v reducesTo_S13x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x13 : Shape := ⟨2, ![100000, 13]⟩
abbrev S2x1600000 : Shape := ⟨2, ![2, 1600000]⟩
abbrev S100000 : Shape := ⟨1, ![100000]⟩
abbrev S13x128 : Shape := ⟨2, ![13, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S100000x128 : Shape := ⟨2, ![100000, 128]⟩
abbrev S2000x13 : Shape := ⟨2, ![2000, 13]⟩
abbrev S2000x128 : Shape := ⟨2, ![2000, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S2000 : Shape := ⟨1, ![2000]⟩
abbrev S100000x1 : Shape := ⟨2, ![100000, 1]⟩
abbrev S2000x1 : Shape := ⟨2, ![2000, 1]⟩
abbrev S1x256 : Shape := ⟨2, ![1, 256]⟩
abbrev S1x1 : Shape := ⟨2, ![1, 1]⟩
abbrev S2000x256 : Shape := ⟨2, ![2000, 256]⟩

abbrev nBuf : Space → Nat
  | .hbm => 230
  | .vmem => 23
  | .smem => 0
  | _ => 0

abbrev hbmTy0_0 (i : Nat) : BufTy := match i % 128 with
  | 0 => ⟨S100000x13, .f32⟩
  | 1 => ⟨S2x1600000, .i32⟩
  | 2 => ⟨S100000, .i32⟩
  | 3 => ⟨S13x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x256, .f32⟩
  | 10 => ⟨S256, .f32⟩
  | 11 => ⟨S256x128, .f32⟩
  | 12 => ⟨S128, .f32⟩
  | 13 => ⟨S128x1, .f32⟩
  | 14 => ⟨S1, .f32⟩
  | 15 => ⟨S100000x128, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x128, .f32⟩
  | 68 => ⟨S1700000x1, .f32⟩
  | 69 => ⟨S1700000x128, .f32⟩
  | 70 => ⟨S1700000x128, .f32⟩
  | 71 => ⟨S_, .f32⟩
  | 72 => ⟨S100000x128, .f32⟩
  | 73 => ⟨S1700000x1, .i32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S100000, .i32⟩
  | 83 => ⟨S1x1600000, .i32⟩
  | 84 => ⟨S1600000, .i32⟩
  | 85 => ⟨S1700000, .i32⟩
  | 86 => ⟨S1x1600000, .i32⟩
  | 87 => ⟨S1600000, .i32⟩
  | 88 => ⟨S1700000, .i32⟩
  | 89 => ⟨S_, .f32⟩
  | 90 => ⟨S1700000, .f32⟩
  | 91 => ⟨S_, .f32⟩
  | 92 => ⟨S100000, .f32⟩
  | 93 => ⟨S1700000x1, .i32⟩
  | 94 => ⟨S100000, .f32⟩
  | 95 => ⟨S_, .f32⟩
  | 96 => ⟨S100000, .f32⟩
  | 97 => ⟨S100000, .i1⟩
  | 98 => ⟨S_, .f32⟩
  | 99 => ⟨S100000, .f32⟩
  | 100 => ⟨S100000, .f32⟩
  | 101 => ⟨S100000, .f32⟩
  | 102 => ⟨S_, .f32⟩
  | 103 => ⟨S_, .f32⟩
  | 104 => ⟨S100000, .f32⟩
  | 105 => ⟨S100000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000, .f32⟩
  | 124 => ⟨S1700000, .f32⟩
  | 125 => ⟨S_, .i32⟩
  | 126 => ⟨S1700000, .i32⟩
  | 127 => ⟨S1700000, .i1⟩
  | _ => ⟨S100000x13, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000x128, .f32⟩
  | 6 => ⟨S1700000x1, .f32⟩
  | 7 => ⟨S1700000x128, .f32⟩
  | 8 => ⟨S1700000x128, .f32⟩
  | 9 => ⟨S_, .f32⟩
  | 10 => ⟨S100000x128, .f32⟩
  | 11 => ⟨S1700000x1, .i32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S100000x128, .f32⟩
  | 20 => ⟨S100000, .i32⟩
  | 21 => ⟨S1x1600000, .i32⟩
  | 22 => ⟨S1600000, .i32⟩
  | 23 => ⟨S1700000, .i32⟩
  | 24 => ⟨S1x1600000, .i32⟩
  | 25 => ⟨S1600000, .i32⟩
  | 26 => ⟨S1700000, .i32⟩
  | 27 => ⟨S_, .f32⟩
  | 28 => ⟨S1700000, .f32⟩
  | 29 => ⟨S_, .f32⟩
  | 30 => ⟨S100000, .f32⟩
  | 31 => ⟨S1700000x1, .i32⟩
  | 32 => ⟨S100000, .f32⟩
  | 33 => ⟨S_, .f32⟩
  | 34 => ⟨S100000, .f32⟩
  | 35 => ⟨S100000, .i1⟩
  | 36 => ⟨S_, .f32⟩
  | 37 => ⟨S100000, .f32⟩
  | 38 => ⟨S100000, .f32⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000, .f32⟩
  | 62 => ⟨S1700000, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000x128, .f32⟩
  | 72 => ⟨S1700000x1, .f32⟩
  | 73 => ⟨S1700000x128, .f32⟩
  | 74 => ⟨S1700000x128, .f32⟩
  | 75 => ⟨S_, .f32⟩
  | 76 => ⟨S100000x128, .f32⟩
  | 77 => ⟨S1700000x1, .i32⟩
  | 78 => ⟨S100000x128, .f32⟩
  | 79 => ⟨S1x128, .f32⟩
  | 80 => ⟨S100000x128, .f32⟩
  | 81 => ⟨S100000x128, .f32⟩
  | 82 => ⟨S_, .f32⟩
  | 83 => ⟨S100000, .f32⟩
  | 84 => ⟨S_, .f32⟩
  | 85 => ⟨S2000, .f32⟩
  | 86 => ⟨S100000x1, .i32⟩
  | 87 => ⟨S2000, .f32⟩
  | 88 => ⟨S_, .f32⟩
  | 89 => ⟨S2000x128, .f32⟩
  | 90 => ⟨S100000x1, .i32⟩
  | 91 => ⟨S2000x128, .f32⟩
  | 92 => ⟨S_, .f32⟩
  | 93 => ⟨S2000, .f32⟩
  | 94 => ⟨S2000, .f32⟩
  | 95 => ⟨S2000x1, .f32⟩
  | 96 => ⟨S2000x128, .f32⟩
  | 97 => ⟨S2000x128, .f32⟩
  | 98 => ⟨S1x256, .f32⟩
  | 99 => ⟨S1x128, .f32⟩
  | 100 => ⟨S1x1, .f32⟩
  | 101 => ⟨S2000x1, .f32⟩
  | _ => ⟨S100000x13, .f32⟩

abbrev hbmTy (i : Nat) : BufTy := match i / 128 with
  | 0 => hbmTy0_0 i
  | 1 => hbmTy0_1 i
  | _ => ⟨S100000x13, .f32⟩

abbrev bufTy : (tb : Table) → Fin (tcTables nBuf tb) → BufTy
  | .hbm, ⟨i, _⟩ => hbmTy i
  | .local _ .vmem, ⟨0, _⟩ => ⟨S2000x13, .f32⟩
  | .local _ .vmem, ⟨1, _⟩ => ⟨S2000x13, .f32⟩
  | .local _ .vmem, ⟨2, _⟩ => ⟨S13x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x256, .f32⟩
  | .local _ .vmem, ⟨17, _⟩ => ⟨S1x256, .f32⟩
  | .local _ .vmem, ⟨18, _⟩ => ⟨S256x128, .f32⟩
  | .local _ .vmem, ⟨19, _⟩ => ⟨S1x128, .f32⟩
  | .local _ .vmem, ⟨20, _⟩ => ⟨S128x1, .f32⟩
  | .local _ .vmem, ⟨21, _⟩ => ⟨S1x1, .f32⟩
  | .local _ .vmem, ⟨22, _⟩ => ⟨S2000x1, .f32⟩
  | _, _ => ⟨S100000x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_c_6 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call1_cst : Ref sig .tc := ⟨.hbm, 78, rfl⟩
abbrev main_call1_v0 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_10 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_12 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_14 : Ref sig .tc := ⟨.hbm, 102, rfl⟩
abbrev main_call2_v0 : Ref sig .tc := ⟨.hbm, 103, rfl⟩
abbrev main_call2_v1 : Ref sig .tc := ⟨.hbm, 104, rfl⟩
abbrev main_v67 : Ref sig .tc := ⟨.hbm, 105, rfl⟩
abbrev main_c_15 : Ref sig .tc := ⟨.hbm, 106, rfl⟩
abbrev main_v68 : Ref sig .tc := ⟨.hbm, 107, rfl⟩
abbrev main_v69 : Ref sig .tc := ⟨.hbm, 108, rfl⟩
abbrev main_c_16 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_c_17 : Ref sig .tc := ⟨.hbm, 115, rfl⟩
abbrev main_v75 : Ref sig .tc := ⟨.hbm, 116, rfl⟩
abbrev main_v76 : Ref sig .tc := ⟨.hbm, 117, rfl⟩
abbrev main_c_18 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_19 : Ref sig .tc := ⟨.hbm, 125, rfl⟩
abbrev main_v83 : Ref sig .tc := ⟨.hbm, 126, rfl⟩
abbrev main_v84 : Ref sig .tc := ⟨.hbm, 127, rfl⟩
abbrev main_c_20 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_21 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_call3_cst : Ref sig .tc := ⟨.hbm, 144, rfl⟩
abbrev main_call3_v0 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_22 : Ref sig .tc := ⟨.hbm, 155, rfl⟩
abbrev main_v108 : Ref sig .tc := ⟨.hbm, 156, rfl⟩
abbrev main_cst_23 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_24 : Ref sig .tc := ⟨.hbm, 161, rfl⟩
abbrev main_v112 : Ref sig .tc := ⟨.hbm, 162, rfl⟩
abbrev main_v113 : Ref sig .tc := ⟨.hbm, 163, rfl⟩
abbrev main_cst_25 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_26 : Ref sig .tc := ⟨.hbm, 168, rfl⟩
abbrev main_call4_v0 : Ref sig .tc := ⟨.hbm, 169, rfl⟩
abbrev main_call4_v1 : Ref sig .tc := ⟨.hbm, 170, rfl⟩
abbrev main_v117 : Ref sig .tc := ⟨.hbm, 171, rfl⟩
abbrev main_c_27 : Ref sig .tc := ⟨.hbm, 172, rfl⟩
abbrev main_v118 : Ref sig .tc := ⟨.hbm, 173, rfl⟩
abbrev main_v119 : Ref sig .tc := ⟨.hbm, 174, rfl⟩
abbrev main_c_28 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_c_29 : Ref sig .tc := ⟨.hbm, 181, rfl⟩
abbrev main_v125 : Ref sig .tc := ⟨.hbm, 182, rfl⟩
abbrev main_v126 : Ref sig .tc := ⟨.hbm, 183, rfl⟩
abbrev main_c_30 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_c_31 : Ref sig .tc := ⟨.hbm, 191, rfl⟩
abbrev main_v133 : Ref sig .tc := ⟨.hbm, 192, rfl⟩
abbrev main_v134 : Ref sig .tc := ⟨.hbm, 193, rfl⟩
abbrev main_c_32 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_cst_33 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_cst_34 : Ref sig .tc := ⟨.hbm, 210, rfl⟩
abbrev main_v149 : Ref sig .tc := ⟨.hbm, 211, rfl⟩
abbrev main_cst_35 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_cst_36 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_cst_37 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc3_stg6_0 : Ref sig .tc := ⟨.vmem, 21, rfl⟩
abbrev cc3_stg7_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20
abbrev cc3_sem6_0 : DmaSem sig := 21
abbrev cc3_sem7_0 : DmaSem sig := 22

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S13x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S2000x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  inb_S2000x13_S2000x13_0_0 : ∀ a, (![0, 0] : Fin 2 → Nat) a + S2000x13.size a ≤ S2000x13.size a
  h_S2000x13 : 0 < S2000x13.numel
  bitsLt_bf16_f32 : FTy.bits .bf16 < FTy.bits .f32
  inb_S13x128_S13x128_0_0 : ∀ a, (![0, 0] : Fin 2 → Nat) a + S13x128.size a ≤ S13x128.size a
  h_S13x128 : 0 < S13x128.numel
  inb_S2000x128_S2000x128_0_0 : ∀ a, (![0, 0] : Fin 2 → Nat) a + S2000x128.size a ≤ S2000x128.size a
  h_S2000x128 : 0 < S2000x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bcast_S_S2000 : S_.BroadcastsInDim S2000 (![] : Fin 0 → Fin S2000.rank)
  bcast_S100000_S100000x1_0 : S100000.BroadcastsInDim S100000x1 (![0] : Fin 1 → Fin S100000x1.rank)
  bcast_S_S2000x128 : S_.BroadcastsInDim S2000x128 (![] : Fin 0 → Fin S2000x128.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  shapeCasts_S256_S1x256 : S256.ShapeCasts S1x256
  shapeCasts_S128_S1x128 : S128.ShapeCasts S1x128
  shapeCasts_S1_S1x1 : S1.ShapeCasts S1x1
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S2000x13_S13x128_S2000x128_1_0_0_1_n_n_wf : DotDims.WF S2000x13 S13x128 S2000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  scatter_S2000_S100000x1_S100000_n_0_0_1_wf : ScatterDims.WF S2000 S100000x1 S100000 [] [0] [0] 1
  scatter_S2000x128_S100000x1_S100000x128_1_0_0_1_wf : ScatterDims.WF S2000x128 S100000x1 S100000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x13.size a ≤ S100000x13.size a
  hwx0_0 : ∀ i : grid0.Coords, EltTy.bits .f32 = 32 ∨ (Rect.block (s := S100000x13) S2000x13.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S13x128.size a ≤ S13x128.size a
  hwx0_1 : ∀ i : grid0.Coords, EltTy.bits .f32 = 32 ∨ (Rect.block (s := S13x128) S13x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S2000x128.size a
  hwx3_0 : ∀ i : grid3.Coords, EltTy.bits .f32 = 32 ∨ (Rect.block (s := S2000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S2000x1.size a ≤ S2000x1.size a
  hwx3_7 : ∀ i : grid3.Coords, EltTy.bits .f32 = 32 ∨ (Rect.block (s := S2000x1) S2000x1.size (cc3_transform_7 i) (hinb3_7 i)).WholeWords (EltTy.packing .f32)

variable [Facts₀]

def dot_S2000x13_S13x128_S2000x128_1_0_0_1_n_n : DotDims S2000x13 S13x128 S2000x128 where
  lhsContracting := [1]
  rhsContracting := [0]
  lhsNonContracting := [0]
  rhsNonContracting := [1]
  lhsBatch := []
  rhsBatch := []
  wf := dot_S2000x13_S13x128_S2000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S13x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v99) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v100) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v160) S2000x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v161) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v162) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v163) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v164) S2000x1.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x13 : Shape := ⟨2, ![100000, 13]⟩
abbrev S2x1600000 : Shape := ⟨2, ![2, 1600000]⟩
abbrev S100000 : Shape := ⟨1, ![100000]⟩
abbrev S13x128 : Shape := ⟨2, ![13, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S100000x128 : Shape := ⟨2, ![100000, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S2000 : Shape := ⟨1, ![2000]⟩
abbrev S100000x1 : Shape := ⟨2, ![100000, 1]⟩
abbrev S2000x128 : Shape := ⟨2, ![2000, 128]⟩
abbrev S2000x1 : Shape := ⟨2, ![2000, 1]⟩
abbrev S2000x256 : Shape := ⟨2, ![2000, 256]⟩
abbrev S1x256 : Shape := ⟨2, ![1, 256]⟩
abbrev S1x1 : Shape := ⟨2, ![1, 1]⟩

abbrev nBuf : Space → Nat
  | .hbm => 244
  | .vmem => 0
  | .smem => 0
  | _ => 0

abbrev hbmTy0_0 (i : Nat) : BufTy := match i % 128 with
  | 0 => ⟨S100000x13, .f32⟩
  | 1 => ⟨S2x1600000, .i32⟩
  | 2 => ⟨S100000, .i32⟩
  | 3 => ⟨S13x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x256, .f32⟩
  | 10 => ⟨S256, .f32⟩
  | 11 => ⟨S256x128, .f32⟩
  | 12 => ⟨S128, .f32⟩
  | 13 => ⟨S128x1, .f32⟩
  | 14 => ⟨S1, .f32⟩
  | 15 => ⟨S100000x128, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x128, .f32⟩
  | 68 => ⟨S1700000x1, .f32⟩
  | 69 => ⟨S1700000x128, .f32⟩
  | 70 => ⟨S1700000x128, .f32⟩
  | 71 => ⟨S_, .f32⟩
  | 72 => ⟨S100000x128, .f32⟩
  | 73 => ⟨S1700000x1, .i32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S100000, .i32⟩
  | 83 => ⟨S1x1600000, .i32⟩
  | 84 => ⟨S1600000, .i32⟩
  | 85 => ⟨S1700000, .i32⟩
  | 86 => ⟨S1x1600000, .i32⟩
  | 87 => ⟨S1600000, .i32⟩
  | 88 => ⟨S1700000, .i32⟩
  | 89 => ⟨S_, .f32⟩
  | 90 => ⟨S1700000, .f32⟩
  | 91 => ⟨S_, .f32⟩
  | 92 => ⟨S100000, .f32⟩
  | 93 => ⟨S1700000x1, .i32⟩
  | 94 => ⟨S100000, .f32⟩
  | 95 => ⟨S_, .f32⟩
  | 96 => ⟨S100000, .f32⟩
  | 97 => ⟨S100000, .i1⟩
  | 98 => ⟨S_, .f32⟩
  | 99 => ⟨S100000, .f32⟩
  | 100 => ⟨S100000, .f32⟩
  | 101 => ⟨S100000, .f32⟩
  | 102 => ⟨S_, .f32⟩
  | 103 => ⟨S_, .f32⟩
  | 104 => ⟨S100000, .f32⟩
  | 105 => ⟨S100000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000, .f32⟩
  | 124 => ⟨S1700000, .f32⟩
  | 125 => ⟨S_, .i32⟩
  | 126 => ⟨S1700000, .i32⟩
  | 127 => ⟨S1700000, .i1⟩
  | _ => ⟨S100000x13, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000x128, .f32⟩
  | 6 => ⟨S1700000x1, .f32⟩
  | 7 => ⟨S1700000x128, .f32⟩
  | 8 => ⟨S1700000x128, .f32⟩
  | 9 => ⟨S_, .f32⟩
  | 10 => ⟨S100000x128, .f32⟩
  | 11 => ⟨S1700000x1, .i32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S100000x128, .f32⟩
  | 20 => ⟨S100000, .i32⟩
  | 21 => ⟨S1x1600000, .i32⟩
  | 22 => ⟨S1600000, .i32⟩
  | 23 => ⟨S1700000, .i32⟩
  | 24 => ⟨S1x1600000, .i32⟩
  | 25 => ⟨S1600000, .i32⟩
  | 26 => ⟨S1700000, .i32⟩
  | 27 => ⟨S_, .f32⟩
  | 28 => ⟨S1700000, .f32⟩
  | 29 => ⟨S_, .f32⟩
  | 30 => ⟨S100000, .f32⟩
  | 31 => ⟨S1700000x1, .i32⟩
  | 32 => ⟨S100000, .f32⟩
  | 33 => ⟨S_, .f32⟩
  | 34 => ⟨S100000, .f32⟩
  | 35 => ⟨S100000, .i1⟩
  | 36 => ⟨S_, .f32⟩
  | 37 => ⟨S100000, .f32⟩
  | 38 => ⟨S100000, .f32⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000, .f32⟩
  | 62 => ⟨S1700000, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000x128, .f32⟩
  | 72 => ⟨S1700000x1, .f32⟩
  | 73 => ⟨S1700000x128, .f32⟩
  | 74 => ⟨S1700000x128, .f32⟩
  | 75 => ⟨S_, .f32⟩
  | 76 => ⟨S100000x128, .f32⟩
  | 77 => ⟨S1700000x1, .i32⟩
  | 78 => ⟨S100000x128, .f32⟩
  | 79 => ⟨S1x128, .f32⟩
  | 80 => ⟨S100000x128, .f32⟩
  | 81 => ⟨S100000x128, .f32⟩
  | 82 => ⟨S_, .f32⟩
  | 83 => ⟨S100000, .f32⟩
  | 84 => ⟨S_, .f32⟩
  | 85 => ⟨S2000, .f32⟩
  | 86 => ⟨S100000x1, .i32⟩
  | 87 => ⟨S2000, .f32⟩
  | 88 => ⟨S_, .f32⟩
  | 89 => ⟨S2000x128, .f32⟩
  | 90 => ⟨S100000x1, .i32⟩
  | 91 => ⟨S2000x128, .f32⟩
  | 92 => ⟨S_, .f32⟩
  | 93 => ⟨S2000, .f32⟩
  | 94 => ⟨S2000, .f32⟩
  | 95 => ⟨S2000x1, .f32⟩
  | 96 => ⟨S2000x128, .f32⟩
  | 97 => ⟨S2000x128, .f32⟩
  | 98 => ⟨S2000x256, .f32⟩
  | 99 => ⟨S1x256, .f32⟩
  | 100 => ⟨S2000x256, .f32⟩
  | 101 => ⟨S2000x256, .f32⟩
  | 102 => ⟨S_, .f32⟩
  | 103 => ⟨S2000x256, .f32⟩
  | 104 => ⟨S2000x256, .f32⟩
  | 105 => ⟨S2000x128, .f32⟩
  | 106 => ⟨S1x128, .f32⟩
  | 107 => ⟨S2000x128, .f32⟩
  | 108 => ⟨S2000x128, .f32⟩
  | 109 => ⟨S_, .f32⟩
  | 110 => ⟨S2000x128, .f32⟩
  | 111 => ⟨S2000x128, .f32⟩
  | 112 => ⟨S2000x1, .f32⟩
  | 113 => ⟨S1x1, .f32⟩
  | 114 => ⟨S2000x1, .f32⟩
  | 115 => ⟨S2000x1, .f32⟩
  | _ => ⟨S100000x13, .f32⟩

abbrev hbmTy (i : Nat) : BufTy := match i / 128 with
  | 0 => hbmTy0_0 i
  | 1 => hbmTy0_1 i
  | _ => ⟨S100000x13, .f32⟩

abbrev bufTy : (tb : Table) → Fin (tcTables nBuf tb) → BufTy
  | .hbm, ⟨i, _⟩ => hbmTy i
  | _, _ => ⟨S100000x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_c_6 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call1_cst : Ref sig .tc := ⟨.hbm, 78, rfl⟩
abbrev main_call1_v0 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_10 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_12 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_14 : Ref sig .tc := ⟨.hbm, 102, rfl⟩
abbrev main_call2_v0 : Ref sig .tc := ⟨.hbm, 103, rfl⟩
abbrev main_call2_v1 : Ref sig .tc := ⟨.hbm, 104, rfl⟩
abbrev main_v67 : Ref sig .tc := ⟨.hbm, 105, rfl⟩
abbrev main_c_15 : Ref sig .tc := ⟨.hbm, 106, rfl⟩
abbrev main_v68 : Ref sig .tc := ⟨.hbm, 107, rfl⟩
abbrev main_v69 : Ref sig .tc := ⟨.hbm, 108, rfl⟩
abbrev main_c_16 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_c_17 : Ref sig .tc := ⟨.hbm, 115, rfl⟩
abbrev main_v75 : Ref sig .tc := ⟨.hbm, 116, rfl⟩
abbrev main_v76 : Ref sig .tc := ⟨.hbm, 117, rfl⟩
abbrev main_c_18 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_19 : Ref sig .tc := ⟨.hbm, 125, rfl⟩
abbrev main_v83 : Ref sig .tc := ⟨.hbm, 126, rfl⟩
abbrev main_v84 : Ref sig .tc := ⟨.hbm, 127, rfl⟩
abbrev main_c_20 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_21 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_call3_cst : Ref sig .tc := ⟨.hbm, 144, rfl⟩
abbrev main_call3_v0 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_22 : Ref sig .tc := ⟨.hbm, 155, rfl⟩
abbrev main_v108 : Ref sig .tc := ⟨.hbm, 156, rfl⟩
abbrev main_cst_23 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_24 : Ref sig .tc := ⟨.hbm, 161, rfl⟩
abbrev main_v112 : Ref sig .tc := ⟨.hbm, 162, rfl⟩
abbrev main_v113 : Ref sig .tc := ⟨.hbm, 163, rfl⟩
abbrev main_cst_25 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_26 : Ref sig .tc := ⟨.hbm, 168, rfl⟩
abbrev main_call4_v0 : Ref sig .tc := ⟨.hbm, 169, rfl⟩
abbrev main_call4_v1 : Ref sig .tc := ⟨.hbm, 170, rfl⟩
abbrev main_v117 : Ref sig .tc := ⟨.hbm, 171, rfl⟩
abbrev main_c_27 : Ref sig .tc := ⟨.hbm, 172, rfl⟩
abbrev main_v118 : Ref sig .tc := ⟨.hbm, 173, rfl⟩
abbrev main_v119 : Ref sig .tc := ⟨.hbm, 174, rfl⟩
abbrev main_c_28 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_c_29 : Ref sig .tc := ⟨.hbm, 181, rfl⟩
abbrev main_v125 : Ref sig .tc := ⟨.hbm, 182, rfl⟩
abbrev main_v126 : Ref sig .tc := ⟨.hbm, 183, rfl⟩
abbrev main_c_30 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_c_31 : Ref sig .tc := ⟨.hbm, 191, rfl⟩
abbrev main_v133 : Ref sig .tc := ⟨.hbm, 192, rfl⟩
abbrev main_v134 : Ref sig .tc := ⟨.hbm, 193, rfl⟩
abbrev main_c_32 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_cst_33 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_cst_34 : Ref sig .tc := ⟨.hbm, 210, rfl⟩
abbrev main_v149 : Ref sig .tc := ⟨.hbm, 211, rfl⟩
abbrev main_cst_35 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_cst_36 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_cst_37 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_call5_cst : Ref sig .tc := ⟨.hbm, 230, rfl⟩
abbrev main_call5_v0 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_call6_cst : Ref sig .tc := ⟨.hbm, 237, rfl⟩
abbrev main_call6_v0 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S2000 : S_.BroadcastsInDim S2000 (![] : Fin 0 → Fin S2000.rank)
  bcast_S100000_S100000x1_0 : S100000.BroadcastsInDim S100000x1 (![0] : Fin 1 → Fin S100000x1.rank)
  bcast_S_S2000x128 : S_.BroadcastsInDim S2000x128 (![] : Fin 0 → Fin S2000x128.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  bcast_S256_S1x256_1 : S256.BroadcastsInDim S1x256 (![1] : Fin 1 → Fin S1x256.rank)
  bcast_S1x256_S2000x256_0_1 : S1x256.BroadcastsInDim S2000x256 (![0, 1] : Fin 2 → Fin S2000x256.rank)
  bcast_S_S2000x256 : S_.BroadcastsInDim S2000x256 (![] : Fin 0 → Fin S2000x256.rank)
  bcast_S1x128_S2000x128_0_1 : S1x128.BroadcastsInDim S2000x128 (![0, 1] : Fin 2 → Fin S2000x128.rank)
  bcast_S1_S1x1_1 : S1.BroadcastsInDim S1x1 (![1] : Fin 1 → Fin S1x1.rank)
  bcast_S1x1_S2000x1_0_1 : S1x1.BroadcastsInDim S2000x1 (![0, 1] : Fin 2 → Fin S2000x1.rank)
  dot_S100000x13_S13x128_S100000x128_1_0_0_1_n_n_wf : DotDims.WF S100000x13 S13x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S2000_S100000x1_S100000_n_0_0_1_wf : ScatterDims.WF S2000 S100000x1 S100000 [] [0] [0] 1
  scatter_S2000x128_S100000x1_S100000x128_1_0_0_1_wf : ScatterDims.WF S2000x128 S100000x1 S100000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []

variable [Facts₀]

def dot_S100000x13_S13x128_S100000x128_1_0_0_1_n_n : DotDims S100000x13 S13x128 S100000x128 where
  lhsContracting := [1]
  rhsContracting := [0]
  lhsNonContracting := [0]
  rhsNonContracting := [1]
  lhsBatch := []
  rhsBatch := []
  wf := dot_S100000x13_S13x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

class Facts : Prop extends Facts₀ where

variable [Facts]
-- ==== Proof.WholeRun.lean ====
/-
  THE RUN WITH EVERY BUFFER NAMED.

  The program is four kernel regions among stretches of host operations. Its run, from any launch memory with zero
  counters, terminates without a fault, and at the end every unscoped buffer of every core holds what the fold of the
  program over the launch memory says: a host stretch rewrites the buffers its operations write, a region leaves in each of
  its arrays what its grid points wrote back and every other buffer as it found it. This is the statement of the run that
  keeps the RESULT buffer, not only the arguments: the final contents `W15 m ρ c` at every reference.
-/
import proofs.«149281_j84920093376750_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in every final state each unscoped
    buffer of each core holds the final fold's contents at that reference. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- The same run, read at the result and at the arguments: the result buffer ends at the final fold's contents there,
    and each argument array ends as launched. -/
theorem run_result : θ_run defs (onTc (τ := τ) (main (F := F))) ⟨m, fun _ => 0, ρ⟩ (fun r => ∀ c : Dev nD,
      r.2.mem ((c.tc : Thread nD τ).loc main_v164) = W15 m ρ c (Proc.devRef .tc main_v164)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v164 (by decide)),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c),
     (h c _ (mem_uc main_arg13 (by decide))).trans (W15_main_arg13 m ρ c),
     (h c _ (mem_uc main_arg14 (by decide))).trans (W15_main_arg14 m ρ c)⟩)
    (run_all m ρ)

end Cert.KernelIdeal.Whole

end
-- ==== Proof.GlueLayer1.lean ====
/-
  THE HOST GLUE OF THE FIRST GRAPH-CONVOLUTION LAYER.

  Between the first projection X·W0 and the second, the program runs sixty-five host operations: it appends the self
  loops to the edge list, counts each node's in-degree by a scatter-add of ones, takes d^(-1/2) where the degree is
  positive, gathers the projected rows at the edges' sources, scales each by the product of the two endpoint factors,
  scatter-adds them at the edges' targets, adds the bias and clamps at zero. The reference runs the SAME operations on
  its own projection. So once the projection entering the stretch is the reference's, the buffer leaving it is the
  reference's stage, and no operation of the stretch is ever opened: the two composed terms are one term.
  The arguments are written by no operation of the stretch and pass through it unchanged.
-/
import proofs.«149281_j84920093376750_1_alg».proof.Proof.Gen.KernelIdeal.Launch
import proofs.«149281_j84920093376750_1_alg».proof.Proof.RefReadPatched
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.StableHlo Idealize.SL.Sem

variable {F : FTy → Type} [FloatOps F]

/-- The fifteen argument arrays. -/
abbrev argRefs : List (Ref sig .tc) :=
  [main_arg0, main_arg1, main_arg2, main_arg3, main_arg4, main_arg5, main_arg6, main_arg7, main_arg8, main_arg9,
   main_arg10, main_arg11, main_arg12, main_arg13, main_arg14]

/-- The first layer's host glue, from the contents `V` its region leaves. -/
abbrev layer1 (V : Valuation τ sig (Elt F)) : Valuation τ sig (Elt F) :=
  after hostOps1_3 (after hostOps1_2 (after hostOps1_1 (after hostOps1 V)))

/-! ## No operation of the stretch writes an argument -/

theorem keeps1 (V : Valuation τ sig (Elt F)) : ∀ b ∈ argRefs, after (hostOps1 (F := F)) V (Proc.devRef .tc b) = V (Proc.devRef .tc b) := fun b hb =>
  after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne ((by decide : ∀ b ∈ argRefs, b ≠ _) b hb)))
theorem keeps1_1 (V : Valuation τ sig (Elt F)) : ∀ b ∈ argRefs, after (hostOps1_1 (F := F)) V (Proc.devRef .tc b) = V (Proc.devRef .tc b) := fun b hb =>
  after_of_forall_not_mem _ _ (List.forall_iff_forall_mem.mp (by
    simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne ((by decide : ∀ b ∈ argRefs, b ≠ _) b hb)))
theorem keeps1_2 (V : Valuation τ sig (Elt F)) : ∀ b ∈ argRefs, after (hostOps1_2 (F := F)) V (Proc.devRef .tc b) = V (Proc.devRef .tc b) := fun b hb =>
  after_of_forall_not_mem _ _ (List.forall_iff_forall_mem.mp (by
    simp only [hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne ((by decide : ∀ b ∈ argRefs, b ≠ _) b hb)))
theorem keeps1_3 (V : Valuation τ sig (Elt F)) : ∀ b ∈ argRefs, after (hostOps1_3 (F := F)) V (Proc.devRef .tc b) = V (Proc.devRef .tc b) := fun b hb =>
  after_of_forall_not_mem _ _ (List.forall_iff_forall_mem.mp (by
    simp only [hostOps1_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne ((by decide : ∀ b ∈ argRefs, b ≠ _) b hb)))

/-- The arguments pass through the whole stretch. -/
theorem layer1_keeps (V : Valuation τ sig (Elt F)) (b : Ref sig .tc) (hb : b ∈ argRefs) :
    layer1 V (Proc.devRef .tc b) = V (Proc.devRef .tc b) :=
  (keeps1_3 _ b hb).trans ((keeps1_2 _ b hb).trans ((keeps1_1 _ b hb).trans (keeps1 V b hb)))

/-! ## The stretch's result is the reference's stage -/

set_option maxHeartbeats 4000000 in
/-- If the projection entering the stretch is the reference's first product, and the edge list and the bias are the
    reference's arguments, the clamped layer output leaving it is the reference's stage: operation by operation the
    same term. -/
theorem layer1_out (V : Valuation τ sig (Elt F))
    (x0 : (⟨Cert.ReferenceIdeal.S100000x13, .f32⟩ : BufTy).Contents (Elt F))
    (x1 : (⟨Cert.ReferenceIdeal.S2x1600000, .i32⟩ : BufTy).Contents (Elt F))
    (x3 : (⟨Cert.ReferenceIdeal.S13x128, .f32⟩ : BufTy).Contents (Elt F))
    (x4 : (⟨Cert.ReferenceIdeal.S128, .f32⟩ : BufTy).Contents (Elt F))
    (h0 : V (Proc.devRef .tc main_v0) = Cert.ReferenceIdeal.ReadP.val_main_v0 (F := F) x0 x3)
    (h1 : V (Proc.devRef .tc main_arg1) = x1) (h4 : V (Proc.devRef .tc main_arg4) = x4) :
    layer1 V (Proc.devRef .tc main_v49) = Cert.ReferenceIdeal.ReadP.val_main_v49 (F := F) x0 x1 x3 x4 := by
  subst h1 h4
  simp only [layer1, hostOps1, hostOps1_1, hostOps1_2, hostOps1_3]
  after_results_simp
  rw [h0]
  rfl

end Cert.KernelIdeal.Glue

end
-- ==== Proof.GlueLayer2.lean ====
/-
  THE HOST GLUE OF THE SECOND GRAPH-CONVOLUTION LAYER.

  The same sixty-five operations as in the first layer (self loops appended, degrees counted, d^(-1/2) where positive,
  rows gathered at the sources, scaled, scatter-added at the targets, bias added, clamped at zero), applied to the second
  projection. The reference applies them to its own second product, so the stretch maps the reference's stage to the
  reference's stage, and the arguments pass through it unchanged.
-/
import proofs.«149281_j84920093376750_1_alg».proof.Proof.Gen.KernelIdeal.Launch
import proofs.«149281_j84920093376750_1_alg».proof.Proof.RefReadPatched
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.StableHlo Idealize.SL.Sem

variable {F : FTy → Type} [FloatOps F]

/-- The fifteen argument arrays. -/
abbrev argRefs2 : List (Ref sig .tc) :=
  [main_arg0, main_arg1, main_arg2, main_arg3, main_arg4, main_arg5, main_arg6, main_arg7, main_arg8, main_arg9,
   main_arg10, main_arg11, main_arg12, main_arg13, main_arg14]

/-- The second layer's host glue, from the contents `V` its region leaves. -/
abbrev layer2 (V : Valuation τ sig (Elt F)) : Valuation τ sig (Elt F) :=
  after hostOps2_3 (after hostOps2_2 (after hostOps2_1 (after hostOps2 V)))

/-! ## No operation of the stretch writes an argument -/

theorem keeps2 (V : Valuation τ sig (Elt F)) : ∀ b ∈ argRefs2, after (hostOps2 (F := F)) V (Proc.devRef .tc b) = V (Proc.devRef .tc b) := fun b hb =>
  after_of_forall_not_mem _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne ((by decide : ∀ b ∈ argRefs2, b ≠ _) b hb)))
theorem keeps2_1 (V : Valuation τ sig (Elt F)) : ∀ b ∈ argRefs2, after (hostOps2_1 (F := F)) V (Proc.devRef .tc b) = V (Proc.devRef .tc b) := fun b hb =>
  after_of_forall_not_mem _ _ (List.forall_iff_forall_mem.mp (by
    simp only [hostOps2_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne ((by decide : ∀ b ∈ argRefs2, b ≠ _) b hb)))
theorem keeps2_2 (V : Valuation τ sig (Elt F)) : ∀ b ∈ argRefs2, after (hostOps2_2 (F := F)) V (Proc.devRef .tc b) = V (Proc.devRef .tc b) := fun b hb =>
  after_of_forall_not_mem _ _ (List.forall_iff_forall_mem.mp (by
    simp only [hostOps2_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne ((by decide : ∀ b ∈ argRefs2, b ≠ _) b hb)))
theorem keeps2_3 (V : Valuation τ sig (Elt F)) : ∀ b ∈ argRefs2, after (hostOps2_3 (F := F)) V (Proc.devRef .tc b) = V (Proc.devRef .tc b) := fun b hb =>
  after_of_forall_not_mem _ _ (List.forall_iff_forall_mem.mp (by
    simp only [hostOps2_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne ((by decide : ∀ b ∈ argRefs2, b ≠ _) b hb)))

/-- The arguments pass through the whole stretch. -/
theorem layer2_keeps (V : Valuation τ sig (Elt F)) (b : Ref sig .tc) (hb : b ∈ argRefs2) :
    layer2 V (Proc.devRef .tc b) = V (Proc.devRef .tc b) :=
  (keeps2_3 _ b hb).trans ((keeps2_2 _ b hb).trans ((keeps2_1 _ b hb).trans (keeps2 V b hb)))

/-! ## The stretch's result is the reference's stage -/

set_option maxHeartbeats 4000000 in
/-- If the projection entering the stretch is the reference's second product, and the edge list and the bias are the
    reference's arguments, the clamped layer output leaving it is the reference's stage. -/
theorem layer2_out (V : Valuation τ sig (Elt F))
    (x0 : (⟨Cert.ReferenceIdeal.S100000x13, .f32⟩ : BufTy).Contents (Elt F))
    (x1 : (⟨Cert.ReferenceIdeal.S2x1600000, .i32⟩ : BufTy).Contents (Elt F))
    (x3 : (⟨Cert.ReferenceIdeal.S13x128, .f32⟩ : BufTy).Contents (Elt F))
    (x4 : (⟨Cert.ReferenceIdeal.S128, .f32⟩ : BufTy).Contents (Elt F))
    (x5 : (⟨Cert.ReferenceIdeal.S128x128, .f32⟩ : BufTy).Contents (Elt F))
    (x6 : (⟨Cert.ReferenceIdeal.S128, .f32⟩ : BufTy).Contents (Elt F))
    (h50 : V (Proc.devRef .tc main_v50) = Cert.ReferenceIdeal.ReadP.val_main_v50 (F := F) x0 x1 x3 x4 x5)
    (h1 : V (Proc.devRef .tc main_arg1) = x1) (h6 : V (Proc.devRef .tc main_arg6) = x6) :
    layer2 V (Proc.devRef .tc main_v99) = Cert.ReferenceIdeal.ReadP.val_main_v99 (F := F) x0 x1 x3 x4 x5 x6 := by
  subst h1 h6
  simp only [layer2, hostOps2, hostOps2_1, hostOps2_2, hostOps2_3]
  after_results_simp
  rw [h50]
  rfl

end Cert.KernelIdeal.Glue

end
-- ==== Proof.GlueLayer3.lean ====
/-
  THE HOST GLUE OF THE THIRD GRAPH-CONVOLUTION LAYER AND THE POOLING.

  After the third projection the program runs the layer's graph part once more (no clamp this time), then pools: it counts
  the nodes of each graph by a scatter-add of ones, scatter-adds the node features by graph, and divides each graph's sum
  by its count clamped below at one. Last it reshapes the three bias vectors of the head into rows. The reference runs the
  same operations on its own third product, so the pooled features leaving the stretch are the reference's stage; the
  reshaped biases are plain casts of the arguments; and the arguments pass through unchanged.
-/
import proofs.«149281_j84920093376750_1_alg».proof.Proof.Gen.KernelIdeal.Launch
import proofs.«149281_j84920093376750_1_alg».proof.Proof.RefReadPatched
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.StableHlo Idealize.SL.Sem

variable {F : FTy → Type} [FloatOps F]

/-- The fifteen argument arrays. -/
abbrev argRefs3 : List (Ref sig .tc) :=
  [main_arg0, main_arg1, main_arg2, main_arg3, main_arg4, main_arg5, main_arg6, main_arg7, main_arg8, main_arg9,
   main_arg10, main_arg11, main_arg12, main_arg13, main_arg14]

/-- The third layer's host glue and the pooling, from the contents `V` its region leaves. -/
abbrev layer3 (V : Valuation τ sig (Elt F)) : Valuation τ sig (Elt F) :=
  after hostOps3_2 (after hostOps3_1 (after hostOps3 V))

/-! ## No operation of the stretch writes an argument -/

theorem keeps3 (V : Valuation τ sig (Elt F)) : ∀ b ∈ argRefs3, after (hostOps3 (F := F)) V (Proc.devRef .tc b) = V (Proc.devRef .tc b) := fun b hb =>
  after_of_forall_not_mem _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne ((by decide : ∀ b ∈ argRefs3, b ≠ _) b hb)))
theorem keeps3_1 (V : Valuation τ sig (Elt F)) : ∀ b ∈ argRefs3, after (hostOps3_1 (F := F)) V (Proc.devRef .tc b) = V (Proc.devRef .tc b) := fun b hb =>
  after_of_forall_not_mem _ _ (List.forall_iff_forall_mem.mp (by
    simp only [hostOps3_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne ((by decide : ∀ b ∈ argRefs3, b ≠ _) b hb)))
theorem keeps3_2 (V : Valuation τ sig (Elt F)) : ∀ b ∈ argRefs3, after (hostOps3_2 (F := F)) V (Proc.devRef .tc b) = V (Proc.devRef .tc b) := fun b hb =>
  after_of_forall_not_mem _ _ (List.forall_iff_forall_mem.mp (by
    simp only [hostOps3_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne ((by decide : ∀ b ∈ argRefs3, b ≠ _) b hb)))

/-- The arguments pass through the whole stretch. -/
theorem layer3_keeps (V : Valuation τ sig (Elt F)) (b : Ref sig .tc) (hb : b ∈ argRefs3) :
    layer3 V (Proc.devRef .tc b) = V (Proc.devRef .tc b) :=
  (keeps3_2 _ b hb).trans ((keeps3_1 _ b hb).trans (keeps3 V b hb))

/-! ## The stretch's results -/

set_option maxHeartbeats 4000000 in
/-- If the projection entering the stretch is the reference's third product, and the edge list, the graph assignment and
    the bias are the reference's arguments, the pooled features leaving it are the reference's stage. -/
theorem layer3_pooled (V : Valuation τ sig (Elt F))
    (x0 : (⟨Cert.ReferenceIdeal.S100000x13, .f32⟩ : BufTy).Contents (Elt F))
    (x1 : (⟨Cert.ReferenceIdeal.S2x1600000, .i32⟩ : BufTy).Contents (Elt F))
    (x2 : (⟨Cert.ReferenceIdeal.S100000, .i32⟩ : BufTy).Contents (Elt F))
    (x3 : (⟨Cert.ReferenceIdeal.S13x128, .f32⟩ : BufTy).Contents (Elt F))
    (x4 : (⟨Cert.ReferenceIdeal.S128, .f32⟩ : BufTy).Contents (Elt F))
    (x5 : (⟨Cert.ReferenceIdeal.S128x128, .f32⟩ : BufTy).Contents (Elt F))
    (x6 : (⟨Cert.ReferenceIdeal.S128, .f32⟩ : BufTy).Contents (Elt F))
    (x7 : (⟨Cert.ReferenceIdeal.S128x128, .f32⟩ : BufTy).Contents (Elt F))
    (x8 : (⟨Cert.ReferenceIdeal.S128, .f32⟩ : BufTy).Contents (Elt F))
    (h100 : V (Proc.devRef .tc main_v100) = Cert.ReferenceIdeal.ReadP.val_main_v100 (F := F) x0 x1 x3 x4 x5 x6 x7)
    (h1 : V (Proc.devRef .tc main_arg1) = x1) (h2 : V (Proc.devRef .tc main_arg2) = x2)
    (h8 : V (Proc.devRef .tc main_arg8) = x8) :
    layer3 V (Proc.devRef .tc main_v160) = Cert.ReferenceIdeal.ReadP.val_main_v160 (F := F) x0 x1 x2 x3 x4 x5 x6 x7 x8 := by
  subst h1 h2 h8
  simp only [layer3, hostOps3, hostOps3_1, hostOps3_2]
  after_results_simp
  rw [h100]
  rfl

set_option maxHeartbeats 4000000 in
/-- The head's first bias, as the row the stretch reshapes it into. -/
theorem layer3_bias0 (V : Valuation τ sig (Elt F)) :
    layer3 V (Proc.devRef .tc main_v161) = shapeCast S1x256 (V (Proc.devRef .tc main_arg10)) shapeCasts_S256_S1x256 := by
  simp only [layer3, hostOps3, hostOps3_1, hostOps3_2]
  after_results_simp
  rfl

set_option maxHeartbeats 4000000 in
/-- The head's second bias, as a row. -/
theorem layer3_bias1 (V : Valuation τ sig (Elt F)) :
    layer3 V (Proc.devRef .tc main_v162) = shapeCast S1x128 (V (Proc.devRef .tc main_arg12)) shapeCasts_S128_S1x128 := by
  simp only [layer3, hostOps3, hostOps3_1, hostOps3_2]
  after_results_simp
  rfl

set_option maxHeartbeats 4000000 in
/-- The head's last bias, as a row. -/
theorem layer3_bias2 (V : Valuation τ sig (Elt F)) :
    layer3 V (Proc.devRef .tc main_v163) = shapeCast S1x1 (V (Proc.devRef .tc main_arg14)) shapeCasts_S1_S1x1 := by
  simp only [layer3, hostOps3, hostOps3_1, hostOps3_2]
  after_results_simp
  rfl

end Cert.KernelIdeal.Glue

end
-- ==== Proof.LibPlainDot.lean ====
/-
  A PLAIN MATRIX PRODUCT READ AT AN INDEX.

  A product of an `M × K` by a `K × N` matrix with no batch axis (left operand contracted on its last axis, right
  operand on its first) has one contraction axis of extent `K`. At the exact instance both the matrix unit's product into
  a zero accumulator and the host's `dot_general` are, at the output index `(p, q)`, the plain sum over `k` of the left
  operand at `(p, k)` times the right operand at `(k, q)`.
-/
import Idealize.ShloMosaic.PureOps
import Idealize.ShloMosaic.PureOps.Ideal.Laws
import Idealize.ShloMosaic.Lib.ValueIdx

namespace Idealize.PlainDot

open Idealize.ShloMosaic Idealize.ShloMosaic.ValueIdx

/-- Dimension numbers with the plain fields are `DotDims.plain` (whatever proof of their conditions they carry). -/
theorem eq_plain {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  obtain ⟨lc, rc, ln, rn, lb, rb, wf⟩ := d
  dsimp only at h1 h2 h3 h4 h5 h6
  subst h1 h2 h3 h4 h5 h6
  rfl

/-- THE CONTRACTION AS A PLAIN SUM: over the one contraction axis of a plain product, the sum of the products of the
    operands at the dot's operand indices for output `(p, q)` is the sum over `k : Fin K` of `l (p, k) * r (k, q)`. -/
theorem plain_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- THE MATRIX UNIT'S PRODUCT INTO A ZERO ACCUMULATOR, read at `(p, q)`. -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    matmul d prec l r (constant (⟨2, ![M, N]⟩ : Shape) .f32 0x00000000#32) (ix2 p q)
      = ∑ k : Fin K, l (ix2 p k) * r (ix2 k q) := by
  subst hd
  show FloatOps.matmul _ prec l r _ _ = _
  rw [Ideal.matmul_constant_zero_apply]
  exact plain_sum l r p q

/-- THE HOST'S `dot_general`, read at `(p, q)`. -/
theorem dotGeneral_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Idealize.PlainDot
-- ==== Proof.ProjRegion0.lean ====
/-
  PROJECTION 0: the array this region leaves is the matrix product of its two operands.

  The region computes `X · W` for `X` of 100000 rows and 13 columns and `W` of 13 rows and 128 columns, over fifty grid
  points of 2000 rows each: point `t` loads rows `2000 t … 2000 t + 1999` of `X` and the whole of `W`, multiplies them into a
  zero accumulator, and writes the 2000 × 128 result back as rows `2000 t … 2000 t + 1999` of the output. Row `r` of the
  output is therefore written by point `r / 2000`, and holds at column `q` the sum over `k` of `X (r, k) * W (k, q)`, which
  is the entry `(r, q)` of the host's `dot_general` of the two whole arrays. Rounding the operands to bf16 before the
  product is the identity on exact values.
-/
import proofs.«149281_j84920093376750_1_alg».proof.Proof.Gen.KernelIdeal.Frame
import proofs.«149281_j84920093376750_1_alg».proof.Proof.LibPlainDot
import Idealize.ShloMosaic.Lib.Pipeline.Value

noncomputable section

namespace Cert.KernelIdeal.Proj

open Cert.KernelIdeal Idealize.ShloMosaic Idealize.ShloMosaic.TcCoe Idealize.SL.Sem
open Idealize.ShloMosaic.ValueIdx
open Idealize.ShloMosaic.Pipeline (Dat)

/-- THE BODY'S RESULT AT AN INDEX: the block the body leaves in the output window holds at `(p, q)` the sum over `k` of
    the left block at `(p, k)` times the right block at `(k, q)`. -/
theorem out0_apply (x0 : Vec Ideal S2000x13 .f32) (x1 : Vec Ideal S13x128 .f32) (p : Fin 2000) (q : Fin 128) :
    Gen.out0_2 x0 x1 (ix2 p q) = ∑ k : Fin 13, x0 (ix2 p k) * x1 (ix2 k q) := by
  have hz : (![0, 0] : Fin 2 → Nat) = fun _ => 0 := funext fun a => by fin_cases a <;> rfl
  unfold Gen.out0_2
  rw [View.canon_unit_zero hz]
  simp only [View.ld_unit_zero (S := S2000x13) hz, View.ld_unit_zero (S := S13x128) hz]
  unfold Gen.k0_pay1
  refine (Idealize.PlainDot.matmul_zero_apply _ (Idealize.PlainDot.eq_plain _ rfl rfl rfl rfl rfl rfl) none _ _ p q).trans ?_
  rfl

/-- The index maps over the grid: at point `t` the left operand's block and the output's block are both block
    `t` of rows (and the one block of columns); the right operand's block is its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b)) (c : Dev nD)

/-- Row `p` of the left operand's block at point `t` is row `2000 t + p` of the left operand. -/
theorem lblk0_apply (t : Fin cfg0.N) (p : Fin 2000) (k : Fin 13) (r : Fin 100000) (hr : r.val = t.val * 2000 + p.val) :
    (Gen.iblk0 V c 0 t : Vec Ideal S2000x13 .f32) (ix2 p k) = (V c main_arg0 : S100000x13.Idx → EReal) (ix2 r k) := by
  obtain ⟨e0, e1, -, -, -, -⟩ := idx_facts0 t
  show V c main_arg0 (((cfg0.win 0).blk t).view.emb (ix2 p k)) = V c main_arg0 (ix2 r k)
  have h : ((cfg0.win 0).blk t).view.emb (ix2 p k) = (ix2 r k : S100000x13.Idx) := by
    funext a; apply Fin.ext
    match a with
    | ⟨0, _⟩ => show win0_0.index t (0 : Fin 2) * 2000 + 1 * p.val = r.val; rw [e0, hr]; omega
    | ⟨1, _⟩ => show win0_0.index t (1 : Fin 2) * 13 + 1 * k.val = k.val; rw [e1]; omega
  exact congrArg (V c main_arg0) h

/-- The right operand's block at every point is the right operand. -/
theorem rblk0_apply (t : Fin cfg0.N) (k : Fin 13) (q : Fin 128) :
    (Gen.iblk0 V c 1 t : Vec Ideal S13x128 .f32) (ix2 k q) = (V c main_arg3 : S13x128.Idx → EReal) (ix2 k q) := by
  obtain ⟨-, -, e2, e3, -, -⟩ := idx_facts0 t
  show V c main_arg3 (((cfg0.win 1).blk t).view.emb (ix2 k q)) = V c main_arg3 (ix2 k q)
  have h : ((cfg0.win 1).blk t).view.emb (ix2 k q) = (ix2 k q : S13x128.Idx) := by
    funext a; apply Fin.ext
    match a with
    | ⟨0, _⟩ => show win0_1.index t (0 : Fin 2) * 13 + 1 * k.val = k.val; rw [e2]; omega
    | ⟨1, _⟩ => show win0_1.index t (1 : Fin 2) * 128 + 1 * q.val = q.val; rw [e3]; omega
  exact congrArg (V c main_arg3) h

/-- WHAT POINT `t` WRITES BACK is block `t` of the product of the two operands as the region finds them: the block's
    index `(p, q)` sits in the array at row `2000 t + p`, column `q`, and both sides are there the sum over `k` of the left
    operand at `(2000 t + p, k)` times the right operand at `(k, q)`. -/
theorem flushed0_eq (t : Fin cfg0.N) :
    (Gen.dat0 (F := Ideal) V c).flushed 2 t
      = ((cfg0.win 2).blk t).view.read (Elt Ideal)
          (Host.dotGeneral (F := Ideal) (φ₁ := .f32) (φ₂ := .f32) (DotDims.plain 100000 13 128) none (V c main_arg0) (V c main_arg3)) := by
  show (cfg0.win 2).cut (grid0.coords t) ((Gen.dat0 V c).after 2 t) = _
  rw [Gen.after0_2]
  funext j
  obtain ⟨p, q, rfl⟩ : ∃ (p : Fin 2000) (q : Fin 128), j = ix2 p q := ⟨j 0, j 1, eq_ix2 j⟩
  obtain ⟨-, -, -, -, e4, e5⟩ := idx_facts0 t
  have hN : cfg0.N = 50 := Gen.N_0
  have ht : t.val < 50 := by have := t.isLt; omega
  have hp : p.val < 2000 := p.isLt
  have hemb : ((cfg0.win 2).blk t).view.emb (ix2 p q)
      = (ix2 (⟨t.val * 2000 + p.val, by omega⟩ : Fin 100000) q : S100000x128.Idx) := by
    funext a; apply Fin.ext
    match a with
    | ⟨0, _⟩ => show win0_2.index t (0 : Fin 2) * 2000 + 1 * p.val = t.val * 2000 + p.val; rw [e4]; omega
    | ⟨1, _⟩ => show win0_2.index t (1 : Fin 2) * 128 + 1 * q.val = q.val; rw [e5]; omega
  show Gen.out0_2 (Gen.iblk0 V c 0 t) (Gen.iblk0 V c 1 t) (ix2 p q)
    = Host.dotGeneral (F := Ideal) (φ₁ := .f32) (φ₂ := .f32) (DotDims.plain 100000 13 128) none (V c main_arg0) (V c main_arg3)
        (((cfg0.win 2).blk t).view.emb (ix2 p q))
  rw [hemb]
  refine (out0_apply (Gen.iblk0 V c 0 t) (Gen.iblk0 V c 1 t) p q).trans ?_
  refine Eq.trans ?_ (Idealize.PlainDot.dotGeneral_apply (φ₁ := .f32) (φ₂ := .f32) (DotDims.plain 100000 13 128) rfl none
    (V c main_arg0) (V c main_arg3) ⟨t.val * 2000 + p.val, by omega⟩ q).symm
  exact Finset.sum_congr rfl fun k _ =>
    congrArg₂ (· * ·) (lblk0_apply V c t p k ⟨t.val * 2000 + p.val, by omega⟩ rfl) (rblk0_apply V c t k q)

end

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

/-- EVERY ROW IS WRITTEN: row `r` lies in the block of point `r / 2000`. -/
theorem cover0 (i : S100000x128.Idx) :
    ∃ t : Fin cfg0.N, (cfg0.win 2).flush t = true ∧ i ∈ ((cfg0.win 2).blk t).view.set := by
  have hN : cfg0.N = 50 := Gen.N_0
  have hi0 : (i 0).val < 100000 := (i 0).isLt
  have hi1 : (i 1).val < 128 := (i 1).isLt
  have ht : (i 0).val / 2000 < cfg0.N := by rw [hN]; omega
  obtain ⟨-, -, -, -, e4, e5⟩ := idx_facts0 ⟨(i 0).val / 2000, ht⟩
  have e4' : win0_2.index ⟨(i 0).val / 2000, ht⟩ (0 : Fin 2) = (i 0).val / 2000 := e4
  refine ⟨⟨(i 0).val / 2000, ht⟩, Gen.flush0_2 _, ?_⟩
  rw [mem_blk0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4']; omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e5]; omega

/-- THE ARRAY THE REGION LEAVES: the output window's array after the last point is the product of the two operands as
    the region finds them. -/
theorem region0_array (V : (c : Dev nD) → (b : Ref sig .tc) → Buf (Elt Ideal) ((c : Thread nD τ).loc b)) (c : Dev nD) :
    (Gen.dat0 (F := Ideal) V c).arrAt 2 cfg0.N
      = Host.dotGeneral (F := Ideal) (φ₁ := .f32) (φ₂ := .f32) (DotDims.plain 100000 13 128) none (V c main_arg0) (V c main_arg3) :=
  (Gen.dat0 (F := Ideal) V c).arrAt_eq_of_cover 2 _ (fun t _ => flushed0_eq V c t) cover0

end Cert.KernelIdeal.Proj

end
-- ==== Proof.ProjRegion1.lean ====
/-
  PROJECTION 1: the array this region leaves is the matrix product of its two operands.

  The region computes `X · W` for `X` of 100000 rows and 128 columns and `W` of 128 rows and 128 columns, over fifty grid
  points of 2000 rows each: point `t` loads rows `2000 t … 2000 t + 1999` of `X` and the whole of `W`, multiplies them into a
  zero accumulator, and writes the 2000 × 128 result back as rows `2000 t … 2000 t + 1999` of the output. Row `r` of the
  output is therefore written by point `r / 2000`, and holds at column `q` the sum over `k` of `X (r, k) * W (k, q)`, which
  is the entry `(r, q)` of the host's `dot_general` of the two whole arrays. Rounding the operands to bf16 before the
  product is the identity on exact values, and so is the cast of the left block to its own shape.
-/
import proofs.«149281_j84920093376750_1_alg».proof.Proof.Gen.KernelIdeal.Frame
import proofs.«149281_j84920093376750_1_alg».proof.Proof.LibPlainDot
import Idealize.ShloMosaic.Lib.Pipeline.Value

noncomputable section

namespace Cert.KernelIdeal.Proj

open Cert.KernelIdeal Idealize.ShloMosaic Idealize.ShloMosaic.TcCoe Idealize.SL.Sem
open Idealize.ShloMosaic.ValueIdx
open Idealize.ShloMosaic.Pipeline (Dat)

/-- THE BODY'S RESULT AT AN INDEX: the block the body leaves in the output window holds at `(p, q)` the sum over `k` of
    the left block at `(p, k)` times the right block at `(k, q)`. -/
theorem out1_apply (x0 : Vec Ideal S2000x128 .f32) (x1 : Vec Ideal S128x128 .f32) (p : Fin 2000) (q : Fin 128) :
    Gen.out1_2 x0 x1 (ix2 p q) = ∑ k : Fin 128, x0 (ix2 p k) * x1 (ix2 k q) := by
  have hz : (![0, 0] : Fin 2 → Nat) = fun _ => 0 := funext fun a => by fin_cases a <;> rfl
  unfold Gen.out1_2
  rw [View.canon_unit_zero hz]
  simp only [View.ld_unit_zero (S := S2000x128) hz, View.ld_unit_zero (S := S128x128) hz]
  unfold Gen.k1_pay1
  refine (Idealize.PlainDot.matmul_zero_apply _ (Idealize.PlainDot.eq_plain _ rfl rfl rfl rfl rfl rfl) none _ _ p q).trans ?_
  refine Finset.sum_congr rfl fun k _ => ?_
  show shapeCast S2000x128 x0 _ (ix2 p k) * x1 (ix2 k q) = x0 (ix2 p k) * x1 (ix2 k q)
  rw [shapeCast_self]

/-- The index maps over the grid: at point `t` the left operand's block and the output's block are both block
    `t` of rows (and the one block of columns); the right operand's block is its one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b)) (c : Dev nD)

/-- Row `p` of the left operand's block at point `t` is row `2000 t + p` of the left operand. -/
theorem lblk1_apply (t : Fin cfg1.N) (p : Fin 2000) (k : Fin 128) (r : Fin 100000) (hr : r.val = t.val * 2000 + p.val) :
    (Gen.iblk1 V c 0 t : Vec Ideal S2000x128 .f32) (ix2 p k) = (V c main_v49 : S100000x128.Idx → EReal) (ix2 r k) := by
  obtain ⟨e0, e1, -, -, -, -⟩ := idx_facts1 t
  show V c main_v49 (((cfg1.win 0).blk t).view.emb (ix2 p k)) = V c main_v49 (ix2 r k)
  have h : ((cfg1.win 0).blk t).view.emb (ix2 p k) = (ix2 r k : S100000x128.Idx) := by
    funext a; apply Fin.ext
    match a with
    | ⟨0, _⟩ => show win1_0.index t (0 : Fin 2) * 2000 + 1 * p.val = r.val; rw [e0, hr]; omega
    | ⟨1, _⟩ => show win1_0.index t (1 : Fin 2) * 128 + 1 * k.val = k.val; rw [e1]; omega
  exact congrArg (V c main_v49) h

/-- The right operand's block at every point is the right operand. -/
theorem rblk1_apply (t : Fin cfg1.N) (k : Fin 128) (q : Fin 128) :
    (Gen.iblk1 V c 1 t : Vec Ideal S128x128 .f32) (ix2 k q) = (V c main_arg5 : S128x128.Idx → EReal) (ix2 k q) := by
  obtain ⟨-, -, e2, e3, -, -⟩ := idx_facts1 t
  show V c main_arg5 (((cfg1.win 1).blk t).view.emb (ix2 k q)) = V c main_arg5 (ix2 k q)
  have h : ((cfg1.win 1).blk t).view.emb (ix2 k q) = (ix2 k q : S128x128.Idx) := by
    funext a; apply Fin.ext
    match a with
    | ⟨0, _⟩ => show win1_1.index t (0 : Fin 2) * 128 + 1 * k.val = k.val; rw [e2]; omega
    | ⟨1, _⟩ => show win1_1.index t (1 : Fin 2) * 128 + 1 * q.val = q.val; rw [e3]; omega
  exact congrArg (V c main_arg5) h

/-- WHAT POINT `t` WRITES BACK is block `t` of the product of the two operands as the region finds them: the block's
    index `(p, q)` sits in the array at row `2000 t + p`, column `q`, and both sides are there the sum over `k` of the left
    operand at `(2000 t + p, k)` times the right operand at `(k, q)`. -/
theorem flushed1_eq (t : Fin cfg1.N) :
    (Gen.dat1 (F := Ideal) V c).flushed 2 t
      = ((cfg1.win 2).blk t).view.read (Elt Ideal)
          (Host.dotGeneral (F := Ideal) (φ₁ := .f32) (φ₂ := .f32) (DotDims.plain 100000 128 128) none (V c main_v49) (V c main_arg5)) := by
  show (cfg1.win 2).cut (grid1.coords t) ((Gen.dat1 V c).after 2 t) = _
  rw [Gen.after1_2]
  funext j
  obtain ⟨p, q, rfl⟩ : ∃ (p : Fin 2000) (q : Fin 128), j = ix2 p q := ⟨j 0, j 1, eq_ix2 j⟩
  obtain ⟨-, -, -, -, e4, e5⟩ := idx_facts1 t
  have hN : cfg1.N = 50 := Gen.N_1
  have ht : t.val < 50 := by have := t.isLt; omega
  have hp : p.val < 2000 := p.isLt
  have hemb : ((cfg1.win 2).blk t).view.emb (ix2 p q)
      = (ix2 (⟨t.val * 2000 + p.val, by omega⟩ : Fin 100000) q : S100000x128.Idx) := by
    funext a; apply Fin.ext
    match a with
    | ⟨0, _⟩ => show win1_2.index t (0 : Fin 2) * 2000 + 1 * p.val = t.val * 2000 + p.val; rw [e4]; omega
    | ⟨1, _⟩ => show win1_2.index t (1 : Fin 2) * 128 + 1 * q.val = q.val; rw [e5]; omega
  show Gen.out1_2 (Gen.iblk1 V c 0 t) (Gen.iblk1 V c 1 t) (ix2 p q)
    = Host.dotGeneral (F := Ideal) (φ₁ := .f32) (φ₂ := .f32) (DotDims.plain 100000 128 128) none (V c main_v49) (V c main_arg5)
        (((cfg1.win 2).blk t).view.emb (ix2 p q))
  rw [hemb]
  refine (out1_apply (Gen.iblk1 V c 0 t) (Gen.iblk1 V c 1 t) p q).trans ?_
  refine Eq.trans ?_ (Idealize.PlainDot.dotGeneral_apply (φ₁ := .f32) (φ₂ := .f32) (DotDims.plain 100000 128 128) rfl none
    (V c main_v49) (V c main_arg5) ⟨t.val * 2000 + p.val, by omega⟩ q).symm
  exact Finset.sum_congr rfl fun k _ =>
    congrArg₂ (· * ·) (lblk1_apply V c t p k ⟨t.val * 2000 + p.val, by omega⟩ rfl) (rblk1_apply V c t k q)

end

/-- An index of the output array is in point `t`'s block iff each coordinate is in the block's range on its axis. -/
theorem mem_blk1 (t : Fin cfg1.N) (i : S100000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v50).slice (win1_2.rect t)).set ↔ _
  rw [View.set_slice_whole, Rect.mem_set_unit]
  exact Iff.rfl

/-- EVERY ROW IS WRITTEN: row `r` lies in the block of point `r / 2000`. -/
theorem cover1 (i : S100000x128.Idx) :
    ∃ t : Fin cfg1.N, (cfg1.win 2).flush t = true ∧ i ∈ ((cfg1.win 2).blk t).view.set := by
  have hN : cfg1.N = 50 := Gen.N_1
  have hi0 : (i 0).val < 100000 := (i 0).isLt
  have hi1 : (i 1).val < 128 := (i 1).isLt
  have ht : (i 0).val / 2000 < cfg1.N := by rw [hN]; omega
  obtain ⟨-, -, -, -, e4, e5⟩ := idx_facts1 ⟨(i 0).val / 2000, ht⟩
  have e4' : win1_2.index ⟨(i 0).val / 2000, ht⟩ (0 : Fin 2) = (i 0).val / 2000 := e4
  refine ⟨⟨(i 0).val / 2000, ht⟩, Gen.flush1_2 _, ?_⟩
  rw [mem_blk1]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e4']; omega
  | ⟨1, _⟩ =>
    show win1_2.index ⟨(i 0).val / 2000, ht⟩ (1 : Fin 2) * 128 ≤ (i 1).val
      ∧ (i 1).val < win1_2.index ⟨(i 0).val / 2000, ht⟩ (1 : Fin 2) * 128 + 128
    rw [e5]; omega

/-- THE ARRAY THE REGION LEAVES: the output window's array after the last point is the product of the two operands as
    the region finds them. -/
theorem region1_array (V : (c : Dev nD) → (b : Ref sig .tc) → Buf (Elt Ideal) ((c : Thread nD τ).loc b)) (c : Dev nD) :
    (Gen.dat1 (F := Ideal) V c).arrAt 2 cfg1.N
      = Host.dotGeneral (F := Ideal) (φ₁ := .f32) (φ₂ := .f32) (DotDims.plain 100000 128 128) none (V c main_v49) (V c main_arg5) :=
  (Gen.dat1 (F := Ideal) V c).arrAt_eq_of_cover 2 _ (fun t _ => flushed1_eq V c t) cover1

end Cert.KernelIdeal.Proj

end
-- ==== Proof.ProjRegion2.lean ====
/-
  PROJECTION 2: the array this region leaves is the matrix product of its two operands.

  The region computes `X · W` for `X` of 100000 rows and 128 columns and `W` of 128 rows and 128 columns, over fifty grid
  points of 2000 rows each: point `t` loads rows `2000 t … 2000 t + 1999` of `X` and the whole of `W`, multiplies them into a
  zero accumulator, and writes the 2000 × 128 result back as rows `2000 t … 2000 t + 1999` of the output. Row `r` of the
  output is therefore written by point `r / 2000`, and holds at column `q` the sum over `k` of `X (r, k) * W (k, q)`, which
  is the entry `(r, q)` of the host's `dot_general` of the two whole arrays. Rounding the operands to bf16 before the
  product is the identity on exact values, and so is the cast of the left block to its own shape.
-/
import proofs.«149281_j84920093376750_1_alg».proof.Proof.Gen.KernelIdeal.Frame
import proofs.«149281_j84920093376750_1_alg».proof.Proof.LibPlainDot
import Idealize.ShloMosaic.Lib.Pipeline.Value

noncomputable section

namespace Cert.KernelIdeal.Proj

open Cert.KernelIdeal Idealize.ShloMosaic Idealize.ShloMosaic.TcCoe Idealize.SL.Sem
open Idealize.ShloMosaic.ValueIdx
open Idealize.ShloMosaic.Pipeline (Dat)

/-- THE BODY'S RESULT AT AN INDEX: the block the body leaves in the output window holds at `(p, q)` the sum over `k` of
    the left block at `(p, k)` times the right block at `(k, q)`. -/
theorem out2_apply (x0 : Vec Ideal S2000x128 .f32) (x1 : Vec Ideal S128x128 .f32) (p : Fin 2000) (q : Fin 128) :
    Gen.out2_2 x0 x1 (ix2 p q) = ∑ k : Fin 128, x0 (ix2 p k) * x1 (ix2 k q) := by
  have hz : (![0, 0] : Fin 2 → Nat) = fun _ => 0 := funext fun a => by fin_cases a <;> rfl
  unfold Gen.out2_2
  rw [View.canon_unit_zero hz]
  simp only [View.ld_unit_zero (S := S2000x128) hz, View.ld_unit_zero (S := S128x128) hz]
  unfold Gen.k2_pay1
  refine (Idealize.PlainDot.matmul_zero_apply _ (Idealize.PlainDot.eq_plain _ rfl rfl rfl rfl rfl rfl) none _ _ p q).trans ?_
  refine Finset.sum_congr rfl fun k _ => ?_
  show shapeCast S2000x128 x0 _ (ix2 p k) * x1 (ix2 k q) = x0 (ix2 p k) * x1 (ix2 k q)
  rw [shapeCast_self]

/-- The index maps over the grid: at point `t` the left operand's block and the output's block are both block
    `t` of rows (and the one block of columns); the right operand's block is its one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b)) (c : Dev nD)

/-- Row `p` of the left operand's block at point `t` is row `2000 t + p` of the left operand. -/
theorem lblk2_apply (t : Fin cfg2.N) (p : Fin 2000) (k : Fin 128) (r : Fin 100000) (hr : r.val = t.val * 2000 + p.val) :
    (Gen.iblk2 V c 0 t : Vec Ideal S2000x128 .f32) (ix2 p k) = (V c main_v99 : S100000x128.Idx → EReal) (ix2 r k) := by
  obtain ⟨e0, e1, -, -, -, -⟩ := idx_facts2 t
  show V c main_v99 (((cfg2.win 0).blk t).view.emb (ix2 p k)) = V c main_v99 (ix2 r k)
  have h : ((cfg2.win 0).blk t).view.emb (ix2 p k) = (ix2 r k : S100000x128.Idx) := by
    funext a; apply Fin.ext
    match a with
    | ⟨0, _⟩ => show win2_0.index t (0 : Fin 2) * 2000 + 1 * p.val = r.val; rw [e0, hr]; omega
    | ⟨1, _⟩ => show win2_0.index t (1 : Fin 2) * 128 + 1 * k.val = k.val; rw [e1]; omega
  exact congrArg (V c main_v99) h

/-- The right operand's block at every point is the right operand. -/
theorem rblk2_apply (t : Fin cfg2.N) (k : Fin 128) (q : Fin 128) :
    (Gen.iblk2 V c 1 t : Vec Ideal S128x128 .f32) (ix2 k q) = (V c main_arg7 : S128x128.Idx → EReal) (ix2 k q) := by
  obtain ⟨-, -, e2, e3, -, -⟩ := idx_facts2 t
  show V c main_arg7 (((cfg2.win 1).blk t).view.emb (ix2 k q)) = V c main_arg7 (ix2 k q)
  have h : ((cfg2.win 1).blk t).view.emb (ix2 k q) = (ix2 k q : S128x128.Idx) := by
    funext a; apply Fin.ext
    match a with
    | ⟨0, _⟩ => show win2_1.index t (0 : Fin 2) * 128 + 1 * k.val = k.val; rw [e2]; omega
    | ⟨1, _⟩ => show win2_1.index t (1 : Fin 2) * 128 + 1 * q.val = q.val; rw [e3]; omega
  exact congrArg (V c main_arg7) h

/-- WHAT POINT `t` WRITES BACK is block `t` of the product of the two operands as the region finds them: the block's
    index `(p, q)` sits in the array at row `2000 t + p`, column `q`, and both sides are there the sum over `k` of the left
    operand at `(2000 t + p, k)` times the right operand at `(k, q)`. -/
theorem flushed2_eq (t : Fin cfg2.N) :
    (Gen.dat2 (F := Ideal) V c).flushed 2 t
      = ((cfg2.win 2).blk t).view.read (Elt Ideal)
          (Host.dotGeneral (F := Ideal) (φ₁ := .f32) (φ₂ := .f32) (DotDims.plain 100000 128 128) none (V c main_v99) (V c main_arg7)) := by
  show (cfg2.win 2).cut (grid2.coords t) ((Gen.dat2 V c).after 2 t) = _
  rw [Gen.after2_2]
  funext j
  obtain ⟨p, q, rfl⟩ : ∃ (p : Fin 2000) (q : Fin 128), j = ix2 p q := ⟨j 0, j 1, eq_ix2 j⟩
  obtain ⟨-, -, -, -, e4, e5⟩ := idx_facts2 t
  have hN : cfg2.N = 50 := Gen.N_2
  have ht : t.val < 50 := by have := t.isLt; omega
  have hp : p.val < 2000 := p.isLt
  have hemb : ((cfg2.win 2).blk t).view.emb (ix2 p q)
      = (ix2 (⟨t.val * 2000 + p.val, by omega⟩ : Fin 100000) q : S100000x128.Idx) := by
    funext a; apply Fin.ext
    match a with
    | ⟨0, _⟩ => show win2_2.index t (0 : Fin 2) * 2000 + 1 * p.val = t.val * 2000 + p.val; rw [e4]; omega
    | ⟨1, _⟩ => show win2_2.index t (1 : Fin 2) * 128 + 1 * q.val = q.val; rw [e5]; omega
  show Gen.out2_2 (Gen.iblk2 V c 0 t) (Gen.iblk2 V c 1 t) (ix2 p q)
    = Host.dotGeneral (F := Ideal) (φ₁ := .f32) (φ₂ := .f32) (DotDims.plain 100000 128 128) none (V c main_v99) (V c main_arg7)
        (((cfg2.win 2).blk t).view.emb (ix2 p q))
  rw [hemb]
  refine (out2_apply (Gen.iblk2 V c 0 t) (Gen.iblk2 V c 1 t) p q).trans ?_
  refine Eq.trans ?_ (Idealize.PlainDot.dotGeneral_apply (φ₁ := .f32) (φ₂ := .f32) (DotDims.plain 100000 128 128) rfl none
    (V c main_v99) (V c main_arg7) ⟨t.val * 2000 + p.val, by omega⟩ q).symm
  exact Finset.sum_congr rfl fun k _ =>
    congrArg₂ (· * ·) (lblk2_apply V c t p k ⟨t.val * 2000 + p.val, by omega⟩ rfl) (rblk2_apply V c t k q)

end

/-- An index of the output array is in point `t`'s block iff each coordinate is in the block's range on its axis. -/
theorem mem_blk2 (t : Fin cfg2.N) (i : S100000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v100).slice (win2_2.rect t)).set ↔ _
  rw [View.set_slice_whole, Rect.mem_set_unit]
  exact Iff.rfl

/-- EVERY ROW IS WRITTEN: row `r` lies in the block of point `r / 2000`. -/
theorem cover2 (i : S100000x128.Idx) :
    ∃ t : Fin cfg2.N, (cfg2.win 2).flush t = true ∧ i ∈ ((cfg2.win 2).blk t).view.set := by
  have hN : cfg2.N = 50 := Gen.N_2
  have hi0 : (i 0).val < 100000 := (i 0).isLt
  have hi1 : (i 1).val < 128 := (i 1).isLt
  have ht : (i 0).val / 2000 < cfg2.N := by rw [hN]; omega
  obtain ⟨-, -, -, -, e4, e5⟩ := idx_facts2 ⟨(i 0).val / 2000, ht⟩
  have e4' : win2_2.index ⟨(i 0).val / 2000, ht⟩ (0 : Fin 2) = (i 0).val / 2000 := e4
  refine ⟨⟨(i 0).val / 2000, ht⟩, Gen.flush2_2 _, ?_⟩
  rw [mem_blk2]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e4']; omega
  | ⟨1, _⟩ =>
    show win2_2.index ⟨(i 0).val / 2000, ht⟩ (1 : Fin 2) * 128 ≤ (i 1).val
      ∧ (i 1).val < win2_2.index ⟨(i 0).val / 2000, ht⟩ (1 : Fin 2) * 128 + 128
    rw [e5]; omega

/-- THE ARRAY THE REGION LEAVES: the output window's array after the last point is the product of the two operands as
    the region finds them. -/
theorem region2_array (V : (c : Dev nD) → (b : Ref sig .tc) → Buf (Elt Ideal) ((c : Thread nD τ).loc b)) (c : Dev nD) :
    (Gen.dat2 (F := Ideal) V c).arrAt 2 cfg2.N
      = Host.dotGeneral (F := Ideal) (φ₁ := .f32) (φ₂ := .f32) (DotDims.plain 100000 128 128) none (V c main_v99) (V c main_arg7) :=
  (Gen.dat2 (F := Ideal) V c).arrAt_eq_of_cover 2 _ (fun t _ => flushed2_eq V c t) cover2

end Cert.KernelIdeal.Proj

end
-- ==== Proof.HeadRegion.lean ====
/-
  THE HEAD'S REGION: ONE GRID POINT, EVERY BLOCK A WHOLE ARRAY.

  The region that computes the head has a grid of one point, and each of its eight windows has a block of the size of its
  array, at block index zero on both axes. So a window's block at the point, read off its array, is the array itself,
  and the one write-back of the output window writes the whole output array. The array the region leaves is therefore
  the body's result on the seven input arrays as the region finds them.
-/
import proofs.«149281_j84920093376750_1_alg».proof.Proof.Gen.KernelIdeal.Frame
import Idealize.ShloMosaic.Lib.Pipeline.Value
import Idealize.ShloMosaic.PureOps.Ideal

noncomputable section

namespace Cert.KernelIdeal.Head

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## Every window's block sits at offset zero -/

/-- Window 0's block offset in its array, on each axis, is zero at every point. -/
theorem off3_0 (t : Fin cfg3.N) : (fun a => win3_0.index t a * main_v160.ty.shape.size a) = fun _ => 0 := by
  funext a; fin_cases a <;> rfl
theorem off3_1 (t : Fin cfg3.N) : (fun a => win3_1.index t a * main_arg9.ty.shape.size a) = fun _ => 0 := by
  funext a; fin_cases a <;> rfl
theorem off3_2 (t : Fin cfg3.N) : (fun a => win3_2.index t a * main_v161.ty.shape.size a) = fun _ => 0 := by
  funext a; fin_cases a <;> rfl
theorem off3_3 (t : Fin cfg3.N) : (fun a => win3_3.index t a * main_arg11.ty.shape.size a) = fun _ => 0 := by
  funext a; fin_cases a <;> rfl
theorem off3_4 (t : Fin cfg3.N) : (fun a => win3_4.index t a * main_v162.ty.shape.size a) = fun _ => 0 := by
  funext a; fin_cases a <;> rfl
theorem off3_5 (t : Fin cfg3.N) : (fun a => win3_5.index t a * main_arg13.ty.shape.size a) = fun _ => 0 := by
  funext a; fin_cases a <;> rfl
theorem off3_6 (t : Fin cfg3.N) : (fun a => win3_6.index t a * main_v163.ty.shape.size a) = fun _ => 0 := by
  funext a; fin_cases a <;> rfl
theorem off3_7 (t : Fin cfg3.N) : (fun a => win3_7.index t a * main_v164.ty.shape.size a) = fun _ => 0 := by
  funext a; fin_cases a <;> rfl

/-! ## Each input window's block is its array -/

theorem iblk3_0_eq (c : Dev nD) (t : Fin cfg3.N) : Gen.iblk3 V c 0 t = V c main_v160 :=
  Memref.read_access_unit_zero (Elt Ideal) main_v160 (off3_0 t) _ (V c main_v160)
theorem iblk3_1_eq (c : Dev nD) (t : Fin cfg3.N) : Gen.iblk3 V c 1 t = V c main_arg9 :=
  Memref.read_access_unit_zero (Elt Ideal) main_arg9 (off3_1 t) _ (V c main_arg9)
theorem iblk3_2_eq (c : Dev nD) (t : Fin cfg3.N) : Gen.iblk3 V c 2 t = V c main_v161 :=
  Memref.read_access_unit_zero (Elt Ideal) main_v161 (off3_2 t) _ (V c main_v161)
theorem iblk3_3_eq (c : Dev nD) (t : Fin cfg3.N) : Gen.iblk3 V c 3 t = V c main_arg11 :=
  Memref.read_access_unit_zero (Elt Ideal) main_arg11 (off3_3 t) _ (V c main_arg11)
theorem iblk3_4_eq (c : Dev nD) (t : Fin cfg3.N) : Gen.iblk3 V c 4 t = V c main_v162 :=
  Memref.read_access_unit_zero (Elt Ideal) main_v162 (off3_4 t) _ (V c main_v162)
theorem iblk3_5_eq (c : Dev nD) (t : Fin cfg3.N) : Gen.iblk3 V c 5 t = V c main_arg13 :=
  Memref.read_access_unit_zero (Elt Ideal) main_arg13 (off3_5 t) _ (V c main_arg13)
theorem iblk3_6_eq (c : Dev nD) (t : Fin cfg3.N) : Gen.iblk3 V c 6 t = V c main_v163 :=
  Memref.read_access_unit_zero (Elt Ideal) main_v163 (off3_6 t) _ (V c main_v163)

/-! ## The one write-back writes the whole result -/

/-- What a point writes back to the output array is the body's result on the input arrays, read through the output
    window's block, which is the whole array. -/
theorem flushed3_7_eq (c : Dev nD) (t : Fin cfg3.N) :
    (Gen.dat3 (F := Ideal) V c).flushed 7 t = ((cfg3.win 7).blk t).view.read (Elt Ideal)
      (Gen.out3_7 (F := Ideal) (V c main_v160) (V c main_arg9) (V c main_v161) (V c main_arg11) (V c main_v162) (V c main_arg13) (V c main_v163)) := by
  show (cfg3.win 7).cut (grid3.coords t) ((Gen.dat3 (F := Ideal) V c).after 7 t) = _
  rw [Gen.after3_7, iblk3_0_eq V c t, iblk3_1_eq V c t, iblk3_2_eq V c t, iblk3_3_eq V c t, iblk3_4_eq V c t,
    iblk3_5_eq V c t, iblk3_6_eq V c t]
  exact (Memref.read_access_unit_zero (Elt Ideal) main_v164 (off3_7 t) _ _).symm

/-- Every index of the output array is in the one point's block. -/
theorem covered (i : S2000x1.Idx) :
    ∃ t : Fin cfg3.N, (cfg3.win 7).flush t = true ∧ i ∈ ((cfg3.win 7).blk t).view.set := by
  refine ⟨Gen.t3_0, Gen.flush3_7 Gen.t3_0, ?_⟩
  show i ∈ ((View.whole main_v164).slice (win3_7.rect Gen.t3_0)).set
  rw [View.set_slice_whole, Rect.mem_set_unit]
  intro a
  have h0 : (i 0).val < 2000 := (i 0).isLt
  have h1 : (i 1).val < 1 := (i 1).isLt
  match a with
  | ⟨0, _⟩ =>
    show win3_7.index Gen.t3_0 0 * 2000 ≤ (i 0).val ∧ (i 0).val < win3_7.index Gen.t3_0 0 * 2000 + 2000
    have e0 : win3_7.index Gen.t3_0 0 * 2000 = 0 := congrFun (off3_7 Gen.t3_0) 0
    omega
  | ⟨1, _⟩ =>
    show win3_7.index Gen.t3_0 1 * 1 ≤ (i 1).val ∧ (i 1).val < win3_7.index Gen.t3_0 1 * 1 + 1
    have e1 : win3_7.index Gen.t3_0 1 * 1 = 0 := congrFun (off3_7 Gen.t3_0) 1
    omega

/-- THE REGION'S RESULT: the output array ends holding the body's result on the input arrays as the region finds
    them. -/
theorem region3_array (c : Dev nD) :
    (Gen.dat3 (F := Ideal) V c).arrAt 7 cfg3.N
      = Gen.out3_7 (F := Ideal) (V c main_v160) (V c main_arg9) (V c main_v161) (V c main_arg11) (V c main_v162) (V c main_arg13) (V c main_v163) :=
  (Gen.dat3 (F := Ideal) V c).arrAt_eq_of_cover 7 _ (fun t _ => flushed3_7_eq V c t) covered

end Cert.KernelIdeal.Head

end
-- ==== Proof.HeadSpec.lean ====
/-
  THE MULTILAYER HEAD AS ONE FUNCTION OF ITS ARGUMENT ARRAYS.

  The head takes the pooled features `P` (2000 rows of 128 numbers) through three dense layers. A dense layer sends a
  row `x` to `x · W + b`: entry `q` of the result is the sum over `k` of `x k * W (k, q)`, plus `b q`. The first two
  layers are followed by the rectifier `max (·) z`, where `z` is the number the all-zero 32-bit word denotes (kept as that
  word: both programs carry the same word, so its value is never needed). Row `p` of the result is therefore

      out p = (∑ k, h2 p k * Wo (k, 0)) + bo 0
      h2 p k = max ((∑ j, h1 p j * Wf1 (j, k)) + bf1 k) z
      h1 p j = max ((∑ a, P (p, a) * Wf0 (a, j)) + bf0 j) z

  over the extended reals, with `a, k` ranging over 128 and `j` over 256 coordinates. Each row depends on the same row
  of `P` only. Nothing here mentions a program: the definitions are over literal shapes and indices built from
  coordinates.
-/
import Idealize.ShloMosaic.PureOps.Ideal
import Idealize.ShloMosaic.Lib.ValueIdx

noncomputable section

namespace Cert.KernelIdeal.Head

open Idealize.ShloMosaic Idealize.ShloMosaic.ValueIdx
open scoped BigOperators

/-- The first hidden layer at row `p`, unit `j`: the rectified dense layer of row `p` of the pooled features. -/
def hidden1 (P : (⟨2, ![2000, 128]⟩ : Shape).Idx → EReal) (Wf0 : (⟨2, ![128, 256]⟩ : Shape).Idx → EReal)
    (bf0 : (⟨1, ![256]⟩ : Shape).Idx → EReal) (p : Fin 2000) (j : Fin 256) : EReal :=
  max ((∑ a : Fin 128, P (ix2 p a) * Wf0 (ix2 a j)) + bf0 (ix1 j)) (Ideal.ofBits .f32 0x00000000#32)

/-- The second hidden layer at row `p`, unit `k`: the rectified dense layer of row `p` of the first hidden layer. -/
def hidden2 (P : (⟨2, ![2000, 128]⟩ : Shape).Idx → EReal) (Wf0 : (⟨2, ![128, 256]⟩ : Shape).Idx → EReal)
    (bf0 : (⟨1, ![256]⟩ : Shape).Idx → EReal) (Wf1 : (⟨2, ![256, 128]⟩ : Shape).Idx → EReal)
    (bf1 : (⟨1, ![128]⟩ : Shape).Idx → EReal) (p : Fin 2000) (k : Fin 128) : EReal :=
  max ((∑ j : Fin 256, hidden1 P Wf0 bf0 p j * Wf1 (ix2 j k)) + bf1 (ix1 k)) (Ideal.ofBits .f32 0x00000000#32)

/-- The head's output for row `p`: the last dense layer (one output unit, no rectifier) of row `p` of the second
    hidden layer. -/
def headRow (P : (⟨2, ![2000, 128]⟩ : Shape).Idx → EReal) (Wf0 : (⟨2, ![128, 256]⟩ : Shape).Idx → EReal)
    (bf0 : (⟨1, ![256]⟩ : Shape).Idx → EReal) (Wf1 : (⟨2, ![256, 128]⟩ : Shape).Idx → EReal)
    (bf1 : (⟨1, ![128]⟩ : Shape).Idx → EReal) (Wo : (⟨2, ![128, 1]⟩ : Shape).Idx → EReal)
    (bo : (⟨1, ![1]⟩ : Shape).Idx → EReal) (p : Fin 2000) : EReal :=
  (∑ k : Fin 128, hidden2 P Wf0 bf0 Wf1 bf1 p k * Wo (ix2 k (0 : Fin 1))) + bo (ix1 (0 : Fin 1))

/-- THE HEAD: the `2000 × 1` array whose entry in row `p` is `headRow … p`. -/
def headSpec (P : (⟨2, ![2000, 128]⟩ : Shape).Idx → EReal) (Wf0 : (⟨2, ![128, 256]⟩ : Shape).Idx → EReal)
    (bf0 : (⟨1, ![256]⟩ : Shape).Idx → EReal) (Wf1 : (⟨2, ![256, 128]⟩ : Shape).Idx → EReal)
    (bf1 : (⟨1, ![128]⟩ : Shape).Idx → EReal) (Wo : (⟨2, ![128, 1]⟩ : Shape).Idx → EReal)
    (bo : (⟨1, ![1]⟩ : Shape).Idx → EReal) : (⟨2, ![2000, 1]⟩ : Shape).Idx → EReal :=
  fun i => headRow P Wf0 bf0 Wf1 bf1 Wo bo (i 0)

/-- The head at the index with coordinates `(p, q)` is row `p`'s output, whatever the unit coordinate `q`. -/
theorem headSpec_apply (P : (⟨2, ![2000, 128]⟩ : Shape).Idx → EReal) (Wf0 : (⟨2, ![128, 256]⟩ : Shape).Idx → EReal)
    (bf0 : (⟨1, ![256]⟩ : Shape).Idx → EReal) (Wf1 : (⟨2, ![256, 128]⟩ : Shape).Idx → EReal)
    (bf1 : (⟨1, ![128]⟩ : Shape).Idx → EReal) (Wo : (⟨2, ![128, 1]⟩ : Shape).Idx → EReal)
    (bo : (⟨1, ![1]⟩ : Shape).Idx → EReal) (p : Fin 2000) (q : Fin 1) :
    headSpec P Wf0 bf0 Wf1 bf1 Wo bo (ix2 p q) = headRow P Wf0 bf0 Wf1 bf1 Wo bo p := rfl

end Cert.KernelIdeal.Head

end
-- ==== Proof.HeadKernel.lean ====
/-
  THE KERNEL'S BODY COMPUTES THE HEAD.

  The body of the head's region loads its seven input blocks whole, computes one value and stores it whole. That value is
  three dense layers: each is a product on the matrix unit into a zero accumulator, of operands narrowed to a shorter
  float format, plus a bias row stretched over the rows; the first two are followed by a maximum with a splat of the zero
  word. At the exact instance a change of float format is the identity and the matrix unit's product into zero is the
  plain sum of products, so entry `(p, q)` of a layer is `(∑ k, x (p, k) * W (k, q)) + b q`. The bias rows reach the
  region as `1 × n` arrays, reshaped on the host from the `n`-vectors; a reshape that only adds a leading unit axis reads
  the vector at the same position. Layer by layer, innermost last, the stored value at row `p` is the head's row `p`.
-/
import proofs.«149281_j84920093376750_1_alg».proof.Proof.Gen.KernelIdeal.Skeleton
import proofs.«149281_j84920093376750_1_alg».proof.Proof.Gen.KernelIdeal.Frame
import proofs.«149281_j84920093376750_1_alg».proof.Proof.HeadSpec
import proofs.«149281_j84920093376750_1_alg».proof.Proof.LibPlainDot
import Idealize.ShloMosaic.Lib.ValueLayout
import Idealize.ShloMosaic.Lib.Pipeline.Value

noncomputable section

namespace Cert.KernelIdeal.Head

open Cert.KernelIdeal Cert.KernelIdeal.Gen Idealize.ShloMosaic Idealize.ShloMosaic.ValueIdx
open scoped BigOperators

/-- The zero offsets of a whole-block access, as the constant function. -/
theorem zero_offsets : (![0, 0] : Fin 2 → Nat) = fun _ => 0 := funext fun a => by fin_cases a <;> rfl

/-! ## One layer, read at an index -/

/-- A DENSE LAYER ON THE MATRIX UNIT, read at `(p, q)`: the product into a zero accumulator of the operands narrowed to
    `bf16`, plus the bias vector `b` — cast to a row `1 × N`, cast to itself, stretched over the `M` rows — is the sum
    over `k` of `x (p, k) * W (k, q)`, plus `b q`. -/
theorem dense_apply {M K N : Nat} (d : DotDims ⟨2, ![M, K]⟩ ⟨2, ![K, N]⟩ ⟨2, ![M, N]⟩) (hd : d = DotDims.plain M K N)
    (hbits : FTy.bits .bf16 < FTy.bits .f32)
    (x : FVec Ideal ⟨2, ![M, K]⟩ .f32) (W : FVec Ideal ⟨2, ![K, N]⟩ .f32) (b : FVec Ideal ⟨1, ![N]⟩ .f32)
    (hc : (⟨1, ![N]⟩ : Shape).ShapeCasts ⟨2, ![1, N]⟩) (hs : (⟨2, ![1, N]⟩ : Shape).ShapeCasts ⟨2, ![1, N]⟩)
    (hbr : (⟨2, ![1, N]⟩ : Shape).Broadcasts ⟨2, ![M, N]⟩) (p : Fin M) (q : Fin N) :
    addf (matmul d none (truncf .bf16 x hbits) (truncf .bf16 W hbits) (constant ⟨2, ![M, N]⟩ .f32 0x00000000#32))
        (broadcastTo ⟨2, ![M, N]⟩ (shapeCast ⟨2, ![1, N]⟩ (shapeCast ⟨2, ![1, N]⟩ b hc) hs) hbr) (ix2 p q)
      = (∑ k : Fin K, x (ix2 p k) * W (ix2 k q)) + b (ix1 q) := by
  refine (addf_apply _ _ _).trans ?_
  refine congrArg₂ (· + ·) ?_ ?_
  · exact Idealize.PlainDot.matmul_zero_apply d hd none _ _ p q
  · refine (broadcastTo_1b_ab_apply _ hbr p q).trans ?_
    rw [shapeCast_self]
    exact shapeCast_a_1a_apply b hc 0 q

/-- THE RECTIFIER, read at an index: the maximum with a splat of the number a word denotes. -/
theorem relu_apply {s : Shape} (x : FVec Ideal s .f32) (w : BitVec (FTy.bits .f32)) (i : s.Idx) :
    maximumf x (broadcast s (Scalar.ofBits (F := Ideal) .f32 w)) i = max (x i) (Ideal.ofBits .f32 w) := rfl

/-! ## The three products' dimension numbers are the plain ones -/

theorem dot1_plain : dot_S2000x128_S128x256_S2000x256_1_0_0_1_n_n = DotDims.plain 2000 128 256 :=
  Idealize.PlainDot.eq_plain _ rfl rfl rfl rfl rfl rfl
theorem dot2_plain : dot_S2000x256_S256x128_S2000x128_1_0_0_1_n_n = DotDims.plain 2000 256 128 :=
  Idealize.PlainDot.eq_plain _ rfl rfl rfl rfl rfl rfl
theorem dot3_plain : dot_S2000x128_S128x1_S2000x1_1_0_0_1_n_n = DotDims.plain 2000 128 1 :=
  Idealize.PlainDot.eq_plain _ rfl rfl rfl rfl rfl rfl

/-! ## The body's value, row by row -/

/-- THE BODY'S VALUE AT ROW `p` is the head's row `p`, when the three bias blocks are the bias vectors with a leading
    unit axis added. -/
theorem pay_apply (P : Vec Ideal S2000x128 .f32) (Wf0 : Vec Ideal S128x256 .f32) (bf0 : Vec Ideal S256 .f32)
    (Wf1 : Vec Ideal S256x128 .f32) (bf1 : Vec Ideal S128 .f32) (Wo : Vec Ideal S128x1 .f32) (bo : Vec Ideal S1 .f32)
    (p : Fin 2000) :
    Gen.k3_pay1 (F := Ideal) P Wf0 (shapeCast S1x256 bf0 shapeCasts_S256_S1x256) Wf1
        (shapeCast S1x128 bf1 shapeCasts_S128_S1x128) Wo (shapeCast S1x1 bo shapeCasts_S1_S1x1) (ix2 p (0 : Fin 1))
      = headRow P Wf0 bf0 Wf1 bf1 Wo bo p := by
  unfold Gen.k3_pay1
  refine (dense_apply dot_S2000x128_S128x1_S2000x1_1_0_0_1_n_n dot3_plain _ _ _ _ _ _ _ p (0 : Fin 1)).trans ?_
  unfold headRow
  refine congrArg₂ (· + ·) (Finset.sum_congr rfl fun k _ => congrArg (· * Wo (ix2 k (0 : Fin 1))) ?_) rfl
  refine (relu_apply _ _ _).trans ?_
  unfold hidden2
  refine congrArg (max · _) ?_
  refine (dense_apply dot_S2000x256_S256x128_S2000x128_1_0_0_1_n_n dot2_plain _ _ _ _ _ _ _ p k).trans ?_
  refine congrArg₂ (· + ·) (Finset.sum_congr rfl fun j _ => congrArg (· * Wf1 (ix2 j k)) ?_) rfl
  refine (relu_apply _ _ _).trans ?_
  unfold hidden1
  refine congrArg (max · _) ?_
  refine (dense_apply dot_S2000x128_S128x256_S2000x256_1_0_0_1_n_n dot1_plain _ _ _ _ _ _ _ p j).trans ?_
  rw [shapeCast_self]

/-- THE REGION'S BODY IS THE HEAD: what the body leaves in the output block, from the input arrays with the biases
    entering as the host's reshapes of the bias vectors, is the head of those arrays. -/
theorem out3_7_eq_head (P : Vec Ideal S2000x128 .f32) (Wf0 : Vec Ideal S128x256 .f32) (bf0 : Vec Ideal S256 .f32)
    (Wf1 : Vec Ideal S256x128 .f32) (bf1 : Vec Ideal S128 .f32) (Wo : Vec Ideal S128x1 .f32) (bo : Vec Ideal S1 .f32) :
    Gen.out3_7 (F := Ideal) P Wf0 (shapeCast S1x256 bf0 shapeCasts_S256_S1x256) Wf1
        (shapeCast S1x128 bf1 shapeCasts_S128_S1x128) Wo (shapeCast S1x1 bo shapeCasts_S1_S1x1)
      = headSpec P Wf0 bf0 Wf1 bf1 Wo bo := by
  funext i
  obtain ⟨p, q, rfl⟩ : ∃ (p : Fin 2000) (q : Fin 1), i = ix2 p q := ⟨i 0, i 1, eq_ix2 i⟩
  obtain rfl : q = 0 := Subsingleton.elim _ _
  unfold Gen.out3_7
  rw [View.canon_unit_zero zero_offsets]
  simp only [View.ld_unit_zero (S := S2000x128) zero_offsets, View.ld_unit_zero (S := S128x256) zero_offsets,
    View.ld_unit_zero (S := S1x256) zero_offsets, View.ld_unit_zero (S := S256x128) zero_offsets,
    View.ld_unit_zero (S := S1x128) zero_offsets, View.ld_unit_zero (S := S128x1) zero_offsets,
    View.ld_unit_zero (S := S1x1) zero_offsets]
  exact pay_apply P Wf0 bf0 Wf1 bf1 Wo bo p

end Cert.KernelIdeal.Head

end
-- ==== Proof.HeadReference.lean ====
/-
  THE REFERENCE'S LAST OPERATIONS COMPUTE THE HEAD.

  The reference program ends with three dense layers on the host: a `dot_general` contracting the left operand's last
  axis with the right operand's first, plus the bias vector broadcast first to a row `1 × n` and then over the rows; the
  first two are followed by a maximum with a broadcast of the scalar constant whose word is zero. At the exact instance
  the host's `dot_general` is the plain sum of products, so entry `(p, q)` of a layer is
  `(∑ k, x (p, k) * W (k, q)) + b q`. Layer by layer, innermost last, the result at row `p` is the head's row `p`.
-/
import proofs.«149281_j84920093376750_1_alg».proof.ReferenceIdeal
import proofs.«149281_j84920093376750_1_alg».proof.Proof.HeadSpec
import proofs.«149281_j84920093376750_1_alg».proof.Proof.LibPlainDot
import Idealize.ShloMosaic.Lib.Pipeline.Value

noncomputable section

namespace Cert.KernelIdeal.Head

open Cert.ReferenceIdeal Cert.ReferenceIdeal.Facts₀ Idealize.ShloMosaic Idealize.ShloMosaic.ValueIdx
open scoped BigOperators

/-! ## One layer, read at an index -/

/-- A DENSE LAYER ON THE HOST, read at `(p, q)`: the `dot_general` of `x` and `W`, plus the bias vector `b` broadcast to
    a row `1 × N` and then over the `M` rows, is the sum over `k` of `x (p, k) * W (k, q)`, plus `b q`. -/
theorem hostDense_apply {M K N : Nat} (d : DotDims ⟨2, ![M, K]⟩ ⟨2, ![K, N]⟩ ⟨2, ![M, N]⟩) (hd : d = DotDims.plain M K N)
    (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) d none x W)
        (broadcastInDim ⟨2, ![M, N]⟩ ![0, 1] h2 (broadcastInDim ⟨2, ![1, N]⟩ ![1] h1 b)) (ix2 p q)
      = (∑ k : Fin K, x (ix2 p k) * W (ix2 k q)) + b (ix1 q) := by
  have hq : q.val < N := q.isLt
  refine (addf_apply _ _ _).trans ?_
  refine congrArg₂ (· + ·) (Idealize.PlainDot.dotGeneral_apply d hd none x W p q) ?_
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => show 0 = if (1 : Nat) = 1 then 0 else p.val; rw [if_pos rfl]
    | ⟨1, _⟩ => show q.val = if N = 1 then 0 else q.val; split <;> omega
  · match a with
    | ⟨0, _⟩ => show q.val = if N = 1 then 0 else q.val; split <;> omega

/-- THE RECTIFIER ON THE HOST, read at an index: the maximum with the broadcast of a scalar constant is the maximum
    with the number the constant's word denotes. -/
theorem hostRelu_apply {t : Shape} (h : (⟨0, ![]⟩ : Shape).BroadcastsInDim t ![]) (X : FVec Ideal t .f32)
    (w : BitVec (FTy.bits .f32)) (i : t.Idx) :
    maximumf X (broadcastInDim t ![] h (constant (F := Ideal) ⟨0, ![]⟩ .f32 w)) i = max (X i) (Ideal.ofBits .f32 w) := rfl

/-! ## The three products' dimension numbers are the plain ones -/

variable [Cert.ReferenceIdeal.Facts₀]

theorem refDot1_plain : dot_S2000x128_S128x256_S2000x256_1_0_0_1_n_n = DotDims.plain 2000 128 256 :=
  Idealize.PlainDot.eq_plain _ rfl rfl rfl rfl rfl rfl
theorem refDot2_plain : dot_S2000x256_S256x128_S2000x128_1_0_0_1_n_n = DotDims.plain 2000 256 128 :=
  Idealize.PlainDot.eq_plain _ rfl rfl rfl rfl rfl rfl
theorem refDot3_plain : dot_S2000x128_S128x1_S2000x1_1_0_0_1_n_n = DotDims.plain 2000 128 1 :=
  Idealize.PlainDot.eq_plain _ rfl rfl rfl rfl rfl rfl

/-! ## The reference's tail -/

/-- THE REFERENCE'S TAIL IS THE HEAD: the last fourteen host operations, applied to the pooled features and the six
    parameter arrays, give the head of those arrays. -/
theorem ref_tail_eq_head (P : (⟨S2000x128, .f32⟩ : BufTy).Contents (Elt Ideal))
    (Wf0 : (⟨S128x256, .f32⟩ : BufTy).Contents (Elt Ideal)) (bf0 : (⟨S256, .f32⟩ : BufTy).Contents (Elt Ideal))
    (Wf1 : (⟨S256x128, .f32⟩ : BufTy).Contents (Elt Ideal)) (bf1 : (⟨S128, .f32⟩ : BufTy).Contents (Elt Ideal))
    (Wo : (⟨S128x1, .f32⟩ : BufTy).Contents (Elt Ideal)) (bo : (⟨S1, .f32⟩ : BufTy).Contents (Elt Ideal)) :
    addf (Host.dotGeneral (F := Ideal) (φ₁ := .f32) (φ₂ := .f32) dot_S2000x128_S128x1_S2000x1_1_0_0_1_n_n none
            (maximumf (addf (Host.dotGeneral (F := Ideal) (φ₁ := .f32) (φ₂ := .f32) dot_S2000x256_S256x128_S2000x128_1_0_0_1_n_n none
                               (maximumf (addf (Host.dotGeneral (F := Ideal) (φ₁ := .f32) (φ₂ := .f32) dot_S2000x128_S128x256_S2000x256_1_0_0_1_n_n none P Wf0)
                                               (broadcastInDim S2000x256 ![0, 1] bcast_S1x256_S2000x256_0_1 (broadcastInDim S1x256 ![1] bcast_S256_S1x256_1 bf0)))
                                         (broadcastInDim S2000x256 ![] bcast_S_S2000x256 (constant (F := Ideal) S_ .f32 0x00000000#32)))
                               Wf1)
                            (broadcastInDim S2000x128 ![0, 1] bcast_S1x128_S2000x128_0_1 (broadcastInDim S1x128 ![1] bcast_S128_S1x128_1 bf1)))
                      (broadcastInDim S2000x128 ![] bcast_S_S2000x128 (constant (F := Ideal) S_ .f32 0x00000000#32)))
            Wo)
          (broadcastInDim S2000x1 ![0, 1] bcast_S1x1_S2000x1_0_1 (broadcastInDim S1x1 ![1] bcast_S1_S1x1_1 bo))
      = headSpec P Wf0 bf0 Wf1 bf1 Wo bo := by
  funext i
  obtain ⟨p, q, rfl⟩ : ∃ (p : Fin 2000) (q : Fin 1), i = ix2 p q := ⟨i 0, i 1, eq_ix2 i⟩
  obtain rfl : q = 0 := Subsingleton.elim _ _
  refine (hostDense_apply dot_S2000x128_S128x1_S2000x1_1_0_0_1_n_n refDot3_plain _ Wo bo _ _ p (0 : Fin 1)).trans ?_
  show _ = headRow P Wf0 bf0 Wf1 bf1 Wo bo p
  unfold headRow
  refine congrArg₂ (· + ·) (Finset.sum_congr rfl fun k _ => congrArg (· * Wo (ix2 k (0 : Fin 1))) ?_) rfl
  refine (hostRelu_apply _ _ _ _).trans ?_
  unfold hidden2
  refine congrArg (max · _) ?_
  refine (hostDense_apply dot_S2000x256_S256x128_S2000x128_1_0_0_1_n_n refDot2_plain _ Wf1 bf1 _ _ p k).trans ?_
  refine congrArg₂ (· + ·) (Finset.sum_congr rfl fun j _ => congrArg (· * Wf1 (ix2 j k)) ?_) rfl
  refine (hostRelu_apply _ _ _ _).trans ?_
  unfold hidden1
  refine congrArg (max · _) ?_
  exact hostDense_apply dot_S2000x128_S128x256_S2000x256_1_0_0_1_n_n refDot1_plain P Wf0 bf0 _ _ p j

end Cert.KernelIdeal.Head

end
-- ==== Proof.Bridge.lean ====
/-
  THE KERNEL PROGRAM'S RESULT IS THE REFERENCE'S LAST STAGE.

  The program alternates kernel regions and host stretches. Walking its fold from the launch memory:
  region 0 leaves X·W0 in its output array, which is the reference's first product; the first layer's host glue maps it to
  the reference's clamped first layer; region 1 multiplies that by W1, the reference's second product; the second layer's
  glue maps it to the reference's clamped second layer; region 2 multiplies by W2; the third layer's glue and the pooling
  give the reference's pooled features and the three head biases as rows; region 3 applies the head, which is what the
  reference's last fourteen host operations compute. Each step uses only: a kernel region's array is the plain matrix
  product of its operand arrays (a sum over the contraction index, tiled by rows or not), a host stretch shared with the
  reference maps equal inputs to equal outputs, and no stretch or region writes an argument it does not own.
-/
import proofs.«149281_j84920093376750_1_alg».proof.Proof.WholeRun
import proofs.«149281_j84920093376750_1_alg».proof.Proof.GlueLayer1
import proofs.«149281_j84920093376750_1_alg».proof.Proof.GlueLayer2
import proofs.«149281_j84920093376750_1_alg».proof.Proof.GlueLayer3
import proofs.«149281_j84920093376750_1_alg».proof.Proof.ProjRegion0
import proofs.«149281_j84920093376750_1_alg».proof.Proof.ProjRegion1
import proofs.«149281_j84920093376750_1_alg».proof.Proof.ProjRegion2
import proofs.«149281_j84920093376750_1_alg».proof.Proof.HeadRegion
import proofs.«149281_j84920093376750_1_alg».proof.Proof.HeadKernel
import proofs.«149281_j84920093376750_1_alg».proof.Proof.HeadReference
import proofs.«149281_j84920093376750_1_alg».proof.Proof.RefReadPatched

set_option maxRecDepth 16384

noncomputable section

namespace Cert.KernelIdeal.Bridge

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- A plain product stated with the library's plain dimension numbers is the one stated with a printed record of the same
    fields. -/
theorem dot_plain {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ .f32) (r : FVec Ideal ⟨2, ![K, N]⟩ .f32) :
    Host.dotGeneral (F := Ideal) (DotDims.plain M K N) none l r = Host.dotGeneral (F := Ideal) d none l r := by
  rw [Idealize.PlainDot.eq_plain d h1 h2 h3 h4 h5 h6]

/-! ## After region 0 -/

theorem at1_v0 : W1 m ρ c (Proc.devRef .tc main_v0) = Cert.ReferenceIdeal.ReadP.val_main_v0 (F := Ideal) (m ((c : Thread nD τ).loc main_arg0)) (m ((c : Thread nD τ).loc main_arg3)) :=
  (W1_arr m ρ c 2).trans ((Proj.region0_array (V0 m ρ) c).trans
    (dot_plain Cert.ReferenceIdeal.dot_S100000x13_S13x128_S100000x128_1_0_0_1_n_n rfl rfl rfl rfl rfl rfl _ _))

theorem at1_arg (b : Ref sig .tc) (hb : ∀ w, Pipeline.arrRef spec0 w ≠ b) :
    W1 m ρ c (Proc.devRef .tc b) = m ((c : Thread nD τ).loc b) := W1_of_ne m ρ c b hb

/-! ## After the first layer's glue -/

theorem at5_v49 : W5 m ρ c (Proc.devRef .tc main_v49) = Cert.ReferenceIdeal.ReadP.val_main_v49 (F := Ideal) (m ((c : Thread nD τ).loc main_arg0)) (m ((c : Thread nD τ).loc main_arg1)) (m ((c : Thread nD τ).loc main_arg3)) (m ((c : Thread nD τ).loc main_arg4)) :=
  Glue.layer1_out (W1 m ρ c) _ _ _ _ (at1_v0 m ρ c) (at1_arg m ρ c main_arg1 (by decide)) (at1_arg m ρ c main_arg4 (by decide))

theorem at5_arg (b : Ref sig .tc) (hb : b ∈ Glue.argRefs) (hb0 : ∀ w, Pipeline.arrRef spec0 w ≠ b) :
    W5 m ρ c (Proc.devRef .tc b) = m ((c : Thread nD τ).loc b) :=
  (Glue.layer1_keeps (W1 m ρ c) b hb).trans (at1_arg m ρ c b hb0)

/-! ## After region 1 -/

theorem at6_v50 : W6 m ρ c (Proc.devRef .tc main_v50) = Cert.ReferenceIdeal.ReadP.val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 2).trans ((Proj.region1_array (V5 m ρ) c).trans ?_)
  show Host.dotGeneral (F := Ideal) (φ₁ := .f32) (φ₂ := .f32) (DotDims.plain 100000 128 128) none (W5 m ρ c (Proc.devRef .tc main_v49)) (W5 m ρ c (Proc.devRef .tc main_arg5)) = _
  rw [at5_v49 m ρ c, at5_arg m ρ c main_arg5 (by decide) (by decide)]
  exact dot_plain Cert.ReferenceIdeal.dot_S100000x128_S128x128_S100000x128_1_0_0_1_n_n rfl rfl rfl rfl rfl rfl _ _

theorem at6_arg (b : Ref sig .tc) (hb : b ∈ Glue.argRefs) (hb0 : ∀ w, Pipeline.arrRef spec0 w ≠ b)
    (hb1 : ∀ w, Pipeline.arrRef spec1 w ≠ b) : W6 m ρ c (Proc.devRef .tc b) = m ((c : Thread nD τ).loc b) :=
  (W6_of_ne m ρ c b hb1).trans (at5_arg m ρ c b hb hb0)

/-! ## After the second layer's glue -/

theorem at10_v99 : W10 m ρ c (Proc.devRef .tc main_v99) = Cert.ReferenceIdeal.ReadP.val_main_v99 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  Glue.layer2_out (W6 m ρ c) _ _ _ _ _ _ (at6_v50 m ρ c) (at6_arg m ρ c main_arg1 (by decide) (by decide) (by decide))
    (at6_arg m ρ c main_arg6 (by decide) (by decide) (by decide))

theorem at10_arg (b : Ref sig .tc) (hb : b ∈ Glue.argRefs) (hb' : b ∈ Glue.argRefs2) (hb0 : ∀ w, Pipeline.arrRef spec0 w ≠ b)
    (hb1 : ∀ w, Pipeline.arrRef spec1 w ≠ b) : W10 m ρ c (Proc.devRef .tc b) = m ((c : Thread nD τ).loc b) :=
  (Glue.layer2_keeps (W6 m ρ c) b hb').trans (at6_arg m ρ c b hb hb0 hb1)

/-! ## After region 2 -/

theorem at11_v100 : W11 m ρ c (Proc.devRef .tc main_v100) = Cert.ReferenceIdeal.ReadP.val_main_v100 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W11_arr m ρ c 2).trans ((Proj.region2_array (V10 m ρ) c).trans ?_)
  show Host.dotGeneral (F := Ideal) (φ₁ := .f32) (φ₂ := .f32) (DotDims.plain 100000 128 128) none (W10 m ρ c (Proc.devRef .tc main_v99)) (W10 m ρ c (Proc.devRef .tc main_arg7)) = _
  rw [at10_v99 m ρ c, at10_arg m ρ c main_arg7 (by decide) (by decide) (by decide) (by decide)]
  exact dot_plain Cert.ReferenceIdeal.dot_S100000x128_S128x128_S100000x128_1_0_0_1_n_n rfl rfl rfl rfl rfl rfl _ _

theorem at11_arg (b : Ref sig .tc) (hb : b ∈ Glue.argRefs) (hb' : b ∈ Glue.argRefs2) (hb0 : ∀ w, Pipeline.arrRef spec0 w ≠ b)
    (hb1 : ∀ w, Pipeline.arrRef spec1 w ≠ b) (hb2 : ∀ w, Pipeline.arrRef spec2 w ≠ b) :
    W11 m ρ c (Proc.devRef .tc b) = m ((c : Thread nD τ).loc b) :=
  (W11_of_ne m ρ c b hb2).trans (at10_arg m ρ c b hb hb' hb0 hb1)

/-! ## After the third layer's glue and the pooling -/

theorem at14_v160 : W14 m ρ c (Proc.devRef .tc main_v160) = Cert.ReferenceIdeal.ReadP.val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  Glue.layer3_pooled (W11 m ρ c) _ _ _ _ _ _ _ _ _ (at11_v100 m ρ c)
    (at11_arg m ρ c main_arg1 (by decide) (by decide) (by decide) (by decide) (by decide))
    (at11_arg m ρ c main_arg2 (by decide) (by decide) (by decide) (by decide) (by decide))
    (at11_arg m ρ c main_arg8 (by decide) (by decide) (by decide) (by decide) (by decide))

theorem at14_arg (b : Ref sig .tc) (hb : b ∈ Glue.argRefs) (hb' : b ∈ Glue.argRefs2) (hb'' : b ∈ Glue.argRefs3)
    (hb0 : ∀ w, Pipeline.arrRef spec0 w ≠ b) (hb1 : ∀ w, Pipeline.arrRef spec1 w ≠ b) (hb2 : ∀ w, Pipeline.arrRef spec2 w ≠ b) :
    W14 m ρ c (Proc.devRef .tc b) = m ((c : Thread nD τ).loc b) :=
  (Glue.layer3_keeps (W11 m ρ c) b hb'').trans (at11_arg m ρ c b hb hb' hb0 hb1 hb2)

theorem at14_bias0 : W14 m ρ c (Proc.devRef .tc main_v161) = shapeCast S1x256 (m ((c : Thread nD τ).loc main_arg10)) shapeCasts_S256_S1x256 :=
  (Glue.layer3_bias0 (W11 m ρ c)).trans (by rw [at11_arg m ρ c main_arg10 (by decide) (by decide) (by decide) (by decide) (by decide)])
theorem at14_bias1 : W14 m ρ c (Proc.devRef .tc main_v162) = shapeCast S1x128 (m ((c : Thread nD τ).loc main_arg12)) shapeCasts_S128_S1x128 :=
  (Glue.layer3_bias1 (W11 m ρ c)).trans (by rw [at11_arg m ρ c main_arg12 (by decide) (by decide) (by decide) (by decide) (by decide)])
theorem at14_bias2 : W14 m ρ c (Proc.devRef .tc main_v163) = shapeCast S1x1 (m ((c : Thread nD τ).loc main_arg14)) shapeCasts_S1_S1x1 :=
  (Glue.layer3_bias2 (W11 m ρ c)).trans (by rw [at11_arg m ρ c main_arg14 (by decide) (by decide) (by decide) (by decide) (by decide)])

/-! ## After region 3: the result -/

theorem result_eq : W15 m ρ c (Proc.devRef .tc main_v164) = Cert.ReferenceIdeal.ReadP.val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W15_arr m ρ c 7).trans ((Head.region3_array (V14 m ρ) c).trans ?_)
  show out3_7 (F := Ideal) (W14 m ρ c (Proc.devRef .tc main_v160)) (W14 m ρ c (Proc.devRef .tc main_arg9)) (W14 m ρ c (Proc.devRef .tc main_v161))
      (W14 m ρ c (Proc.devRef .tc main_arg11)) (W14 m ρ c (Proc.devRef .tc main_v162)) (W14 m ρ c (Proc.devRef .tc main_arg13))
      (W14 m ρ c (Proc.devRef .tc main_v163)) = _
  rw [at14_v160 m ρ c, at14_bias0 m ρ c, at14_bias1 m ρ c, at14_bias2 m ρ c,
    at14_arg m ρ c main_arg9 (by decide) (by decide) (by decide) (by decide) (by decide) (by decide),
    at14_arg m ρ c main_arg11 (by decide) (by decide) (by decide) (by decide) (by decide) (by decide),
    at14_arg m ρ c main_arg13 (by decide) (by decide) (by decide) (by decide) (by decide) (by decide)]
  refine (Head.out3_7_eq_head _ _ _ _ _ _ _).trans ?_
  refine (Head.ref_tail_eq_head _ _ _ _ _ _ _).symm.trans ?_
  rfl

end Cert.KernelIdeal.Bridge

end
-- ==== Proof.lean ====
/-
  THE CERTIFICATE: a three-layer graph convolution network with a mean pool and a three-layer head, whose dense products
  run as kernel regions, against the same network written with plain matrix products.

  The two programs differ only where the kernel program calls a region: three row-tiled products X·W (each block of 2000
  rows a matrix-unit product into a zero accumulator, on operands cast to a narrower float format) where the reference has
  one `dot_general`, and one region for the whole head where the reference has fourteen host operations. Over the extended
  reals a change of float format is the identity and both kinds of product are the sum over the contraction index of the
  products of the entries, so region by region the arrays agree; every host operation between the regions — appending the
  self loops, the degree count, d^(-1/2), the gathers, the scatter-adds, the bias, the clamp, the pooling — is the same
  operation in both programs and is never opened. No step uses distributivity or cancellation, so the inputs' finiteness is
  not used.

  The three frames: the two kernel programs' are the generated frame certificates; the reference's is its run with the
  result dropped. The idealized kernel is the kernel's own text read over the extended reals (no rewrite), so there is
  nothing to preserve. The value claim: the kernel program's run ends with its result buffer at the final fold's contents
  (the run restated with every buffer named), those contents are the reference's last stage of the arguments (the walk
  through the boundaries), and the reference's run ends at that stage.
-/
import proofs.«149281_j84920093376750_1_alg».proof.Defs
import proofs.«149281_j84920093376750_1_alg».proof.Proof.Gen.Kernel
import proofs.«149281_j84920093376750_1_alg».proof.Proof.Gen.Kernel.Frame
import proofs.«149281_j84920093376750_1_alg».proof.Proof.Gen.KernelIdeal
import proofs.«149281_j84920093376750_1_alg».proof.Proof.Gen.KernelIdeal.Frame
import proofs.«149281_j84920093376750_1_alg».proof.Proof.Gen.ReferenceIdeal
import proofs.«149281_j84920093376750_1_alg».proof.Proof.Gen.Pre_finite_inputs
import proofs.«149281_j84920093376750_1_alg».proof.Proof.RefRunPatched
import proofs.«149281_j84920093376750_1_alg».proof.Proof.RefReadPatched
import proofs.«149281_j84920093376750_1_alg».proof.Proof.WholeRun
import proofs.«149281_j84920093376750_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both runs end with the result at the reference's last stage of the kernel program's arguments: the kernel program's by
    the walk through its boundaries, the reference's by its run read back, the arguments agreeing. -/
theorem algebraic : Cert.algebraic_KernelIdeal_ReferenceIdeal := by
  intro m ρ m' ρ' _ hagree
  refine ⟨fun c => Cert.ReferenceIdeal.ReadP.val_main_v174 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Bridge.result_eq m ρ c), (h c).2⟩)
      (Cert.KernelIdeal.Whole.run_result (F := Ideal) m ρ)
  · refine (θ_run Cert.ReferenceIdeal.defs _ _).mono (fun r h c => ⟨?_, (h c).2⟩)
      (Cert.ReferenceIdeal.ValueP.run (F := Ideal) m' ρ')
    obtain ⟨e0, e1, e2, e3, e4, e5, e6, e7, e8, e9, e10, e11, e12, e13, e14⟩ := hagree c
    rw [(h c).1, Cert.ReferenceIdeal.ReadP.val_main_v174_eq, e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
